-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S64x32 .f32) (main_arg5 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x32 .f32) (main_arg5 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x64 : Shape := ⟨2, ![1, 64]⟩
abbrev S1x32 : Shape := ⟨2, ![1, 32]⟩
abbrev S10000x32 : Shape := ⟨2, ![10000, 32]⟩
abbrev S400x10000 : Shape := ⟨2, ![400, 10000]⟩
abbrev S400x32 : Shape := ⟨2, ![400, 32]⟩
abbrev S10000x64 : Shape := ⟨2, ![10000, 64]⟩
abbrev S400x64 : Shape := ⟨2, ![400, 64]⟩

abbrev nBuf : Space → Nat
  | .hbm => 10
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x64, .f32⟩
  | .hbm, ⟨7, _⟩ => ⟨S1x32, .f32⟩
  | .hbm, ⟨8, _⟩ => ⟨S10000x32, .f32⟩
  | .hbm, ⟨9, _⟩ => ⟨S10000x32, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x64, .f32⟩
  | .local _ .vmem, ⟨4, _⟩ => ⟨S1x64, .f32⟩
  | .local _ .vmem, ⟨5, _⟩ => ⟨S64x32, .f32⟩
  | .local _ .vmem, ⟨6, _⟩ => ⟨S400x32, .f32⟩
  | .local _ .vmem, ⟨7, _⟩ => ⟨S400x32, .f32⟩
  | .local _ .vmem, ⟨8, _⟩ => ⟨S10000x64, .f32⟩
  | .local _ .vmem, ⟨9, _⟩ => ⟨S400x10000, .f32⟩
  | .local _ .vmem, ⟨10, _⟩ => ⟨S400x10000, .f32⟩
  | .local _ .vmem, ⟨11, _⟩ => ⟨S10000x32, .f32⟩
  | .local _ .vmem, ⟨12, _⟩ => ⟨S1x32, .f32⟩
  | .local _ .vmem, ⟨13, _⟩ => ⟨S400x32, .f32⟩
  | .local _ .vmem, ⟨14, _⟩ => ⟨S400x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c24_i32 : BitVec 32 := 24#32
  let v0 : BitVec 32 := Scalar.subi c24_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c24_i32 : BitVec 32 := 24#32
  let v0 : BitVec 32 := Scalar.subi c24_i32 arg0
  let c0_i32 : BitVec 32 := 0#32
  let c0_i32_0 : BitVec 32 := 0#32
  ![v0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64_S1x64 : S64.ShapeCasts S1x64
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x32_S64x32_0_0 : ∀ a, (![0, 0] : Fin 2 → Nat) a + S64x32.size a ≤ S64x32.size a
  h_S64x32 : 0 < S64x32.numel
  inb_S400x32_S400x32_0_0 : ∀ a, (![0, 0] : Fin 2 → Nat) a + S400x32.size a ≤ S400x32.size a
  h_S400x32 : 0 < S400x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x32_S400x32_1_0_0_1_n_n_wf : DotDims.WF S400x64 S64x32 S400x32 [1] [0] [0] [1] [] []
  dot_S400x10000_S10000x32_S400x32_1_0_0_1_n_n_wf : DotDims.WF S400x10000 S10000x32 S400x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x32.size a ≤ S10000x32.size a
  hwx0_5 : ∀ i : grid0.Coords, EltTy.bits .f32 = 32 ∨ (Rect.block (s := S10000x32) S400x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x32.size a ≤ S10000x32.size a
  hwx1_3 : ∀ i : grid1.Coords, EltTy.bits .f32 = 32 ∨ (Rect.block (s := S10000x32) S400x32.size (cc1_transform_3 i) (hinb1_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x32_S400x32_1_0_0_1_n_n : DotDims S400x64 S64x32 S400x32 where
  lhsContracting := [1]
  rhsContracting := [0]
  lhsNonContracting := [0]
  rhsNonContracting := [1]
  lhsBatch := []
  rhsBatch := []
  wf := dot_S400x64_S64x32_S400x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S400x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S400x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S10000x64 : Shape := ⟨2, ![10000, 64]⟩
abbrev S1x64 : Shape := ⟨2, ![1, 64]⟩
abbrev S_ : Shape := ⟨0, ![]⟩
abbrev S10000x32 : Shape := ⟨2, ![10000, 32]⟩
abbrev S1x32 : Shape := ⟨2, ![1, 32]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x32, .f32⟩
  | .hbm, ⟨15, _⟩ => ⟨S10000x32, .f32⟩
  | .hbm, ⟨16, _⟩ => ⟨S1x32, .f32⟩
  | .hbm, ⟨17, _⟩ => ⟨S10000x32, .f32⟩
  | .hbm, ⟨18, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf

class Facts : Prop extends Facts₀ where

variable [Facts]
-- ==== Proof.FrameB.LayerOne.lean ====
/-
  The first propagation layer as a pipeline region: at the first grid point the body computes the support
  S1 = x · W1 into a scratch buffer that stays in place for the rest of the grid; at every point it multiplies one
  stripe of 400 rows of the adjacency matrix by S1, adds the bias row, clamps below at zero and multiplies by W2.
  Stated at ANY contents V of the core's buffers when the region is entered. The invariant carries the scratch:
  before the first point it holds anything, from then on it holds x · W1 of the two resident blocks.
-/
import proofs.«171362_g16277926052538_cont_week2b_966_18_alg».proof.Proof.Gen.Kernel.Launch
import proofs.«171362_g16277926052538_cont_week2b_966_18_alg».proof.Proof.Gen.Kernel.Skeleton
import proofs.«171362_g16277926052538_cont_week2b_966_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blkOne (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency stripe's buffer holds its block at every point. -/
theorem beforeOne_0_of {c : Dev nD} (dat : Dat τ (Elt F) Unit ℕ (UR sig nD τ) ℕ cfg0 c) (hA : dat.A 0 = V c (Pipeline.arrRef spec0 0))
    (hafter : ∀ t, dat.after 0 t = blkOne V c 0 t) (t : Fin cfg0.N) (d) : dat.before 0 t d = blkOne V c 0 t :=
  (dat.before_in_eq_fetched 0 rfl (fun _ => rfl) (fun _ _ _ => rfl) (fun t => by rw [hafter]; unfold Dat.blockOf blkOne; rw [hA]; try rfl) t d).trans
    (by unfold Dat.fetched Dat.blockOf blkOne; rw [hA]; try rfl)
/-- The resident feature matrix: fetched once, its index never moves. -/
theorem beforeOne_1_of {c : Dev nD} (dat : Dat τ (Elt F) Unit ℕ (UR sig nD τ) ℕ cfg0 c) (hA : dat.A 1 = V c (Pipeline.arrRef spec0 1))
    (hafter : ∀ t, dat.after 1 t = blkOne V c 1 t) (t : Fin cfg0.N) (d) : dat.before 1 t d = blkOne V c 1 t :=
  (dat.before_in_eq_fetched 1 rfl (fun _ => rfl) (fun _ _ _ => rfl) (fun t => by rw [hafter]; unfold Dat.blockOf blkOne; rw [hA]; try rfl) t d).trans
    (by unfold Dat.fetched Dat.blockOf blkOne; rw [hA]; try rfl)
/-- The resident first weight matrix likewise. -/
theorem beforeOne_2_of {c : Dev nD} (dat : Dat τ (Elt F) Unit ℕ (UR sig nD τ) ℕ cfg0 c) (hA : dat.A 2 = V c (Pipeline.arrRef spec0 2))
    (hafter : ∀ t, dat.after 2 t = blkOne V c 2 t) (t : Fin cfg0.N) (d) : dat.before 2 t d = blkOne V c 2 t :=
  (dat.before_in_eq_fetched 2 rfl (fun _ => rfl) (fun _ _ _ => rfl) (fun t => by rw [hafter]; unfold Dat.blockOf blkOne; rw [hA]; try rfl) t d).trans
    (by unfold Dat.fetched Dat.blockOf blkOne; rw [hA]; try rfl)
/-- The resident first bias row likewise. -/
theorem beforeOne_3_of {c : Dev nD} (dat : Dat τ (Elt F) Unit ℕ (UR sig nD τ) ℕ cfg0 c) (hA : dat.A 3 = V c (Pipeline.arrRef spec0 3))
    (hafter : ∀ t, dat.after 3 t = blkOne V c 3 t) (t : Fin cfg0.N) (d) : dat.before 3 t d = blkOne V c 3 t :=
  (dat.before_in_eq_fetched 3 rfl (fun _ => rfl) (fun _ _ _ => rfl) (fun t => by rw [hafter]; unfold Dat.blockOf blkOne; rw [hA]; try rfl) t d).trans
    (by unfold Dat.fetched Dat.blockOf blkOne; rw [hA]; try rfl)
/-- The resident second weight matrix likewise. -/
theorem beforeOne_4_of {c : Dev nD} (dat : Dat τ (Elt F) Unit ℕ (UR sig nD τ) ℕ cfg0 c) (hA : dat.A 4 = V c (Pipeline.arrRef spec0 4))
    (hafter : ∀ t, dat.after 4 t = blkOne V c 4 t) (t : Fin cfg0.N) (d) : dat.before 4 t d = blkOne V c 4 t :=
  (dat.before_in_eq_fetched 4 rfl (fun _ => rfl) (fun _ _ _ => rfl) (fun t => by rw [hafter]; unfold Dat.blockOf blkOne; rw [hA]; try rfl) t d).trans
    (by unfold Dat.fetched Dat.blockOf blkOne; rw [hA]; try rfl)

/-! ## The body's accesses: every buffer whole, from offset zero -/

theorem off_zero : (![0, 0] : Fin 2 → Nat) = fun _ => 0 := by
  funext a; fin_cases a <;> rfl

/-- One whole store covers the support's buffer, and one the output stripe's. -/
theorem coverSupp (p0 : Vec F S10000x64 .f32) (y : S10000x64.Idx) :
    ∃ pc ∈ ([⟨Rect.unit (s := S10000x64) ![0, 0] S10000x64.size inb_S10000x64_S10000x64_0_0, p0⟩] : List (View.Piece (Elt F) S10000x64 .f32)), y ∈ pc.1.set :=
  View.cover_of_tiled [⟨Rect.unit (s := S10000x64) ![0, 0] S10000x64.size inb_S10000x64_S10000x64_0_0, p0⟩] S10000x64.size (by rfl) y
theorem coverOne (p0 : Vec F S400x32 .f32) (y : S400x32.Idx) :
    ∃ pc ∈ ([⟨Rect.unit (s := S400x32) ![0, 0] S400x32.size inb_S400x32_S400x32_0_0, p0⟩] : List (View.Piece (Elt F) S400x32 .f32)), y ∈ pc.1.set :=
  View.cover_of_tiled [⟨Rect.unit (s := S400x32) ![0, 0] S400x32.size inb_S400x32_S400x32_0_0, p0⟩] S400x32.size (by rfl) y

/-! ## Which points take the branch -/

/-- The body's one branch condition, from the grid coordinate: "this is point 0". -/
abbrev condFirst (i : grid0.Coords) : Prop := (Scalar.cmpi .ne (Scalar.extui (Scalar.cmpi .eq (BitVec.ofNat 32 (i 0).val) 0#32)) 0#32) = 1#1
/-- It holds at the first point only (decided over the 25 points). -/
theorem hcondFirst : ∀ t : Fin cfg0.N, condFirst (grid0.coords t) ↔ t.val = 0 :=
  (by decide +kernel : ∀ t : Fin grid0.N, condFirst (grid0.coords t) ↔ t.val = 0)

/-! ## The body's two triples -/

set_option maxHeartbeats 1000000 in
/-- AT THE FIRST POINT: inputs at x0..x4, the output's buffer and the scratch at anything; the body leaves the scratch
    at x1 · x2 and the output at the stripe's product computed FROM that support. -/
theorem sound_kernelOne_first (c : Dev nD) (E : Set ℕ) (i : grid0.Coords) (hc : condFirst i) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S400x32 .f32) (harg6 : arg6.IsWhole) (arg7 : Memref sig .tc .vmem S10000x64 .f32) (harg7 : arg7.IsWhole)
    (x0 : Vec F S400x10000 .f32) (x1 : Vec F S10000x128 .f32) (x2 : Vec F S128x64 .f32) (x3 : Vec F S1x64 .f32) (x4 : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay2 x0 (k0_pay1 x1 x2) x3 x4) ∗ owns (c : Thread nD τ) arg7 fullShare (k0_pay1 x1 x2)) -∗ K ⟨⟩))
      ⊢ wp frame (wpE (defs₀ (F := F)) Variants.none c none) E (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, Hk⟩
  subst hf0; subst hf1; subst hf2; subst hf3; subst hf4
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    rw [View.read_writes_eq_canon _ _ _ (coverOne _), View.canon_unit_zero off_zero, View.readCov_unit_zero _ off_zero]
    simp only [View.readAt_eq_ld, View.ld_unit_zero (S := S400x10000) off_zero, View.ld_unit_zero (S := S10000x128) off_zero,
      View.ld_unit_zero (S := S128x64) off_zero, View.ld_unit_zero (S := S1x64) off_zero, View.ld_unit_zero (S := S64x32) off_zero]
  iexists _; isplitr
  swap; · iexact H7
  ipureintro
  rw [View.read_writes_eq_canon _ _ _ (coverSupp _), View.canon_unit_zero off_zero]
  simp only [View.readAt_eq_ld, View.ld_unit_zero (S := S10000x128) off_zero, View.ld_unit_zero (S := S128x64) off_zero]

set_option maxHeartbeats 1000000 in
/-- AT ANY LATER POINT: the scratch at contents s is read and left as it is; the output is the stripe's product
    computed from s. -/
theorem sound_kernelOne_later (c : Dev nD) (E : Set ℕ) (i : grid0.Coords) (hc : ¬condFirst i) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S400x32 .f32) (harg6 : arg6.IsWhole) (arg7 : Memref sig .tc .vmem S10000x64 .f32) (harg7 : arg7.IsWhole)
    (x0 : Vec F S400x10000 .f32) (x1 : Vec F S10000x128 .f32) (x2 : Vec F S128x64 .f32) (x3 : Vec F S1x64 .f32) (x4 : Vec F S64x32 .f32) (s : Vec F S10000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay2 x0 s x3 x4) ∗ owns (c : Thread nD τ) arg7 fullShare s) -∗ K ⟨⟩))
      ⊢ wp frame (wpE (defs₀ (F := F)) Variants.none c none) E (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, Hk⟩
  subst hf0; subst hf1; subst hf2; subst hf3; subst hf4; subst hf7
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    rw [View.read_writes_eq_canon _ _ _ (coverOne _), View.canon_unit_zero off_zero]
    simp only [View.readAt_eq_ld, View.ld_unit_zero (S := S400x10000) off_zero, View.ld_unit_zero (S := S10000x64) off_zero,
      View.ld_unit_zero (S := S1x64) off_zero, View.ld_unit_zero (S := S64x32) off_zero]
  iexists f7; isplitr; · ipureintro; rfl
  iexact H7

/-! ## The invariant: the support stays in the scratch -/

/-- The scratch the kernel keeps between points. -/
abbrev scM : Memref sig .tc .vmem S10000x64 .f32 := Memref.whole cc0_scratch0
/-- The first point of the grid. -/
abbrev first : Fin cfg0.N := ⟨0, by decide⟩
/-- The support x · W1, of the two resident blocks as the first point finds them. -/
def supp (c : Dev nD) : Vec F S10000x64 .f32 := k0_pay1 (blkOne V c 1 first) (blkOne V c 2 first)

/-- The core's other scoped buffers that are no staging buffer of this region (the second layer's staging buffers),
    each whole at some contents: they ride along untouched. -/
abbrev restOne (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch as a memref owned at some contents. -/
theorem PhiA_eq (c : Dev nD) :
    (Pipeline.ΦA spec0 c : sProp 𝕄)
      = iprop(iprop((∃ d, owns (c : Thread nD τ) scM fullShare d) ∗ restOne c) ∗ (∃ r, prngReg c r)) := by
  unfold Pipeline.ΦA; rw [scopedRest0_eq]; simp only [scM, owns_whole]; try rfl

/-- The region's invariant before position n: before the first point the scratch holds anything; afterwards the support. -/
def PhiOne (c : Dev nD) : ℕ → sProp 𝕄
  | 0 => Pipeline.ΦA spec0 c
  | _ + 1 => iprop(iprop(owns (c : Thread nD τ) scM fullShare (supp V c) ∗ restOne c) ∗ (∃ r, prngReg c r))

theorem PhiOne_zero (c : Dev nD) (n : ℕ) (hz : n = 0) : PhiOne V c n = Pipeline.ΦA spec0 c := by
  subst hz; rfl
theorem PhiOne_succ (c : Dev nD) (n : ℕ) :
    PhiOne V c (n + 1) = iprop(iprop(owns (c : Thread nD τ) scM fullShare (supp V c) ∗ restOne c) ∗ (∃ r, prngReg c r)) := rfl
theorem PhiOne_pos (c : Dev nD) (n : ℕ) (hz : n ≠ 0) :
    PhiOne V c n = iprop(iprop(owns (c : Thread nD τ) scM fullShare (supp V c) ∗ restOne c) ∗ (∃ r, prngReg c r)) := by
  cases n with
  | zero => exact absurd rfl hz
  | succ n => rfl

/-! ## The proof data -/

/-- The proof data of the first layer's pipeline on core c: the arrays as the region finds them; after the body at
    point t each input's buffer at its block and the output's at the stripe's product from the support; the
    invariant `PhiOne`; nothing owed; full shares. -/
def datOne (c : Dev nD) : Dat τ (Elt F) Unit ℕ (UR sig nD τ) ℕ cfg0 c where
  A w := V c (Pipeline.arrRef spec0 w)
  after w t := match w with
    | ⟨0, _⟩ => blkOne V c 0 t
    | ⟨1, _⟩ => blkOne V c 1 t
    | ⟨2, _⟩ => blkOne V c 2 t
    | ⟨3, _⟩ => blkOne V c 3 t
    | ⟨4, _⟩ => blkOne V c 4 t
    | ⟨5, _⟩ => k0_pay2 (blkOne V c 0 t) (supp V c) (blkOne V c 3 t) (blkOne V c 4 t)
  Φ t := PhiOne V c t.val
  q _ := fullShare
  owed _ := 0

theorem A_eqOne (c : Dev nD) (w : Fin cfg0.W) : (datOne V c).A w = V c (Pipeline.arrRef spec0 w) := by
  dsimp only [datOne]
theorem afterOne_0 (c : Dev nD) (t : Fin cfg0.N) : (datOne V c).after 0 t = blkOne V c 0 t := by dsimp only [datOne]
theorem afterOne_1 (c : Dev nD) (t : Fin cfg0.N) : (datOne V c).after 1 t = blkOne V c 1 t := by dsimp only [datOne]
theorem afterOne_2 (c : Dev nD) (t : Fin cfg0.N) : (datOne V c).after 2 t = blkOne V c 2 t := by dsimp only [datOne]
theorem afterOne_3 (c : Dev nD) (t : Fin cfg0.N) : (datOne V c).after 3 t = blkOne V c 3 t := by dsimp only [datOne]
theorem afterOne_4 (c : Dev nD) (t : Fin cfg0.N) : (datOne V c).after 4 t = blkOne V c 4 t := by dsimp only [datOne]
theorem afterOne_5 (c : Dev nD) (t : Fin cfg0.N) :
    (datOne V c).after 5 t = k0_pay2 (blkOne V c 0 t) (supp V c) (blkOne V c 3 t) (blkOne V c 4 t) := by dsimp only [datOne]

theorem beforeOne_0 (c : Dev nD) (t : Fin cfg0.N) (d) : (datOne V c).before 0 t d = blkOne V c 0 t :=
  beforeOne_0_of V (datOne V c) (A_eqOne V c 0) (afterOne_0 V c) t d
theorem beforeOne_1 (c : Dev nD) (t : Fin cfg0.N) (d) : (datOne V c).before 1 t d = blkOne V c 1 t :=
  beforeOne_1_of V (datOne V c) (A_eqOne V c 1) (afterOne_1 V c) t d
theorem beforeOne_2 (c : Dev nD) (t : Fin cfg0.N) (d) : (datOne V c).before 2 t d = blkOne V c 2 t :=
  beforeOne_2_of V (datOne V c) (A_eqOne V c 2) (afterOne_2 V c) t d
theorem beforeOne_3 (c : Dev nD) (t : Fin cfg0.N) (d) : (datOne V c).before 3 t d = blkOne V c 3 t :=
  beforeOne_3_of V (datOne V c) (A_eqOne V c 3) (afterOne_3 V c) t d
theorem beforeOne_4 (c : Dev nD) (t : Fin cfg0.N) (d) : (datOne V c).before 4 t d = blkOne V c 4 t :=
  beforeOne_4_of V (datOne V c) (A_eqOne V c 4) (afterOne_4 V c) t d

/-! ## The body obligation -/

def bodyPreOne (c : Dev nD) (t : Fin cfg0.N) : sProp 𝕄 :=
  iprop((datOne V c).Φ t.castSucc ∗ (datOne V c).owesAt () t.castSucc
    ∗ (∃ d, owns (c : Thread nD τ) (st0_0 t) fullShare ((datOne V c).before 0 t d))
    ∗ (∃ d, owns (c : Thread nD τ) (st0_1 t) fullShare ((datOne V c).before 1 t d))
    ∗ (∃ d, owns (c : Thread nD τ) (st0_2 t) fullShare ((datOne V c).before 2 t d))
    ∗ (∃ d, owns (c : Thread nD τ) (st0_3 t) fullShare ((datOne V c).before 3 t d))
    ∗ (∃ d, owns (c : Thread nD τ) (st0_4 t) fullShare ((datOne V c).before 4 t d))
    ∗ (∃ d, owns (c : Thread nD τ) (st0_5 t) fullShare ((datOne V c).before 5 t d)))

def bodyPostOne (c : Dev nD) (t : Fin cfg0.N) : sProp 𝕄 :=
  iprop((datOne V c).Φ t.succ ∗ (datOne V c).owesAt () t.succ
    ∗ owns (c : Thread nD τ) (st0_0 t) fullShare ((datOne V c).after 0 t)
    ∗ owns (c : Thread nD τ) (st0_1 t) fullShare ((datOne V c).after 1 t)
    ∗ owns (c : Thread nD τ) (st0_2 t) fullShare ((datOne V c).after 2 t)
    ∗ owns (c : Thread nD τ) (st0_3 t) fullShare ((datOne V c).after 3 t)
    ∗ owns (c : Thread nD τ) (st0_4 t) fullShare ((datOne V c).after 4 t)
    ∗ owns (c : Thread nD τ) (st0_5 t) fullShare ((datOne V c).after 5 t))

set_option maxHeartbeats 2000000 in
/-- The body at any point. At the first point the invariant hands it the scratch at anything and takes it back at the
    support; at a later point it hands it the support and takes it back unchanged. -/
theorem sound_bodyOne (c : Dev nD) (t : Fin cfg0.N) :
    bodyPreOne V c t ⊢ wp frame (wpE (defs₀ (F := F)) Variants.none c none) Set.univ (bodyAt0 t) (fun _ => bodyPostOne V c t) := by
  unfold bodyPreOne bodyPostOne bodyAt0
  simp only [beforeOne_0, beforeOne_1, beforeOne_2, beforeOne_3, beforeOne_4]
  rw [show (datOne V c).owesAt () t.succ = (datOne V c).owesAt () t.castSucc from rfl,
    show (datOne V c).Φ t.succ = PhiOne V c (t.val + 1) from rfl, PhiOne_succ,
    show (datOne V c).Φ t.castSucc = PhiOne V c t.val from rfl,
    afterOne_0, afterOne_1, afterOne_2, afterOne_3, afterOne_4, afterOne_5]
  by_cases hz : t.val = 0
  · obtain rfl : t = first := Fin.ext hz
    rw [PhiOne_zero V c _ rfl, PhiA_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (sound_kernelOne_first c Set.univ (grid0.coords first) ((hcondFirst first).mpr rfl) _ _ _ _ _ _ _ _ _ _ _ _ _ _
      (blkOne V c 0 first) (blkOne V c 1 first) (blkOne V c 2 first) (blkOne V c 3 first) (blkOne V c 4 first) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiOne_pos V c _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (sound_kernelOne_later c Set.univ (grid0.coords t) (fun h => hz ((hcondFirst t).mp h)) _ _ _ _ _ _ _ _ _ _ _ _ _ _
      (blkOne V c 0 t) (blkOne V c 1 t) (blkOne V c 2 t) (blkOne V c 3 t) (blkOne V c 4 t) (supp V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

theorem body_obligationOne (c : Dev nD) : BodyObligation (datOne (F := F) V c) (defs₀ (F := F)) Variants.none () Set.univ := fun t => by
  rw [bigSep_W0, bigSep_W0]
  exact sound_bodyOne V c t

/-! ## Into the invariant and out of it -/

/-- What the launch hands the region is the invariant before the first point. -/
theorem hinOne (c : Dev nD) : Pipeline.ΦA spec0 c ⊢ (datOne V c).Φ 0 := by
  rw [show (datOne V c).Φ 0 = PhiOne V c 0 from rfl, PhiOne_zero V c 0 rfl]
  try exact Idealize.SL.BI.Entails.refl _

/-- After the last point the invariant gives the class invariant back: the scratch's contents are forgotten. -/
theorem houtOne (c : Dev nD) : (datOne V c).Φ (Fin.last cfg0.N) ⊢ Pipeline.ΦA spec0 c := by
  rw [show (datOne V c).Φ (Fin.last cfg0.N) = PhiOne V c (Fin.last cfg0.N).val from rfl,
    PhiOne_pos V c _ (by rw [Fin.val_last]; have : cfg0.N = 25 := N_0; omega), PhiA_eq]
  iintro ⟨⟨HS, Hrest⟩, Hg⟩
  isplitl [HS Hrest]
  · isplitl [HS]
    · iexists _; iexact HS
    iexact Hrest
  iexact Hg

end Cert.Kernel.Hand

end
-- ==== Proof.FrameB.LayerTwo.lean ====
/-
  The second propagation layer as a pipeline region: at grid point t the body multiplies one stripe of 400 rows
  of the adjacency matrix by the whole hidden product S2 and adds the bias row. Stated at ANY contents V of the
  core's buffers when the region is entered: each window's block at a point, what the body's one store leaves in
  the output stripe's buffer, the body's triple, the proof data and the obligation at every point.
-/
import proofs.«171362_g16277926052538_cont_week2b_966_18_alg».proof.Proof.Gen.Kernel.Launch
import proofs.«171362_g16277926052538_cont_week2b_966_18_alg».proof.Proof.Gen.Kernel.Skeleton
import proofs.«171362_g16277926052538_cont_week2b_966_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blkTwo (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency stripe's buffer holds its block at every point. -/
theorem beforeTwo_0_of {c : Dev nD} (dat : Dat τ (Elt F) Unit ℕ (UR sig nD τ) ℕ cfg1 c) (hA : dat.A 0 = V c (Pipeline.arrRef spec1 0))
    (hafter : ∀ t, dat.after 0 t = blkTwo V c 0 t) (t : Fin cfg1.N) (d) : dat.before 0 t d = blkTwo V c 0 t :=
  (dat.before_in_eq_fetched 0 rfl (fun _ => rfl) (fun _ _ _ => rfl) (fun t => by rw [hafter]; unfold Dat.blockOf blkTwo; rw [hA]; try rfl) t d).trans
    (by unfold Dat.fetched Dat.blockOf blkTwo; rw [hA]; try rfl)
/-- The resident hidden product's buffer holds the whole array at every point: fetched once, its index never moves. -/
theorem beforeTwo_1_of {c : Dev nD} (dat : Dat τ (Elt F) Unit ℕ (UR sig nD τ) ℕ cfg1 c) (hA : dat.A 1 = V c (Pipeline.arrRef spec1 1))
    (hafter : ∀ t, dat.after 1 t = blkTwo V c 1 t) (t : Fin cfg1.N) (d) : dat.before 1 t d = blkTwo V c 1 t :=
  (dat.before_in_eq_fetched 1 rfl (fun _ => rfl) (fun _ _ _ => rfl) (fun t => by rw [hafter]; unfold Dat.blockOf blkTwo; rw [hA]; try rfl) t d).trans
    (by unfold Dat.fetched Dat.blockOf blkTwo; rw [hA]; try rfl)
/-- The bias row's buffer likewise. -/
theorem beforeTwo_2_of {c : Dev nD} (dat : Dat τ (Elt F) Unit ℕ (UR sig nD τ) ℕ cfg1 c) (hA : dat.A 2 = V c (Pipeline.arrRef spec1 2))
    (hafter : ∀ t, dat.after 2 t = blkTwo V c 2 t) (t : Fin cfg1.N) (d) : dat.before 2 t d = blkTwo V c 2 t :=
  (dat.before_in_eq_fetched 2 rfl (fun _ => rfl) (fun _ _ _ => rfl) (fun t => by rw [hafter]; unfold Dat.blockOf blkTwo; rw [hA]; try rfl) t d).trans
    (by unfold Dat.fetched Dat.blockOf blkTwo; rw [hA]; try rfl)

/-! ## The body's accesses: each buffer whole -/

abbrev rAdj : Rect S400x10000 := Rect.unit (s := S400x10000) ![0, 0] S400x10000.size inb_S400x10000_S400x10000_0_0
abbrev rHid : Rect S10000x32 := Rect.unit (s := S10000x32) ![0, 0] S10000x32.size inb_S10000x32_S10000x32_0_0
abbrev rB2 : Rect S1x32 := Rect.unit (s := S1x32) ![0, 0] S1x32.size inb_S1x32_S1x32_0_0
abbrev rOut : Rect S400x32 := Rect.unit (s := S400x32) ![0, 0] S400x32.size inb_S400x32_S400x32_0_0

/-- The output stripe's buffer after the body: its one whole store, of stripe × hidden product + bias row. -/
def outTwo (x0 : Vec F S400x10000 .f32) (x1 : Vec F S10000x32 .f32) (x2 : Vec F S1x32 .f32) : Vec F S400x32 .f32 :=
  View.canon [⟨rOut, k1_pay1 (View.ld x0 rAdj) (View.ld x1 rHid) (View.ld x2 rB2)⟩]

/-- The one store covers the buffer. -/
theorem coverTwo (p0 : Vec F S400x32 .f32) (y : S400x32.Idx) :
    ∃ pc ∈ ([⟨rOut, p0⟩] : List (View.Piece (Elt F) S400x32 .f32)), y ∈ pc.1.set :=
  View.cover_of_tiled [⟨rOut, p0⟩] S400x32.size (by rfl) y

/-! ## The body's triple -/

set_option maxHeartbeats 1000000 in
/-- The body on whole staging memrefs, the inputs' at contents x0 x1 x2 and the output's at anything, runs to the
    continuation holding the inputs' as they were and the output's at `outTwo` of them. -/
theorem sound_kernelTwo (c : Dev nD) (E : Set ℕ) (i : grid1.Coords) (arg1 : Memref sig .tc .vmem S400x10000 .f32) (harg1 : arg1.IsWhole) (arg2 : Memref sig .tc .vmem S10000x32 .f32) (harg2 : arg2.IsWhole) (arg3 : Memref sig .tc .vmem S1x32 .f32) (harg3 : arg3.IsWhole) (arg4 : Memref sig .tc .vmem S400x32 .f32) (harg4 : arg4.IsWhole)
    (x0 : Vec F S400x10000 .f32) (x1 : Vec F S10000x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outTwo x0 x1 x2)) -∗ K ⟨⟩))
      ⊢ wp frame (wpE (defs₀ (F := F)) Variants.none c none) E (cc1__layer2_body i arg1 harg1 arg2 harg2 arg3 harg3 arg4 harg4) K := by
  simp only [cc1__layer2_body_eq_skeleton]; unfold cc1__layer2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverTwo _)

/-! ## The proof data -/

/-- The proof data of the second layer's pipeline on core c: the arrays as the region finds them; after the body at
    point t each input's buffer at its block and the output's at `outTwo` of the input blocks; the invariant the
    scoped buffers no window stages and the generator register, untouched; nothing owed; full shares. -/
def datTwo (c : Dev nD) : Dat τ (Elt F) Unit ℕ (UR sig nD τ) ℕ cfg1 c where
  A w := V c (Pipeline.arrRef spec1 w)
  after w t := match w with
    | ⟨0, _⟩ => blkTwo V c 0 t
    | ⟨1, _⟩ => blkTwo V c 1 t
    | ⟨2, _⟩ => blkTwo V c 2 t
    | ⟨3, _⟩ => outTwo (blkTwo V c 0 t) (blkTwo V c 1 t) (blkTwo V c 2 t)
  Φ _ := Pipeline.ΦA spec1 c
  q _ := fullShare
  owed _ := 0

theorem A_eqTwo (c : Dev nD) (w : Fin cfg1.W) : (datTwo V c).A w = V c (Pipeline.arrRef spec1 w) := by
  dsimp only [datTwo]
theorem afterTwo_0 (c : Dev nD) (t : Fin cfg1.N) : (datTwo V c).after 0 t = blkTwo V c 0 t := by dsimp only [datTwo]
theorem afterTwo_1 (c : Dev nD) (t : Fin cfg1.N) : (datTwo V c).after 1 t = blkTwo V c 1 t := by dsimp only [datTwo]
theorem afterTwo_2 (c : Dev nD) (t : Fin cfg1.N) : (datTwo V c).after 2 t = blkTwo V c 2 t := by dsimp only [datTwo]
theorem afterTwo_3 (c : Dev nD) (t : Fin cfg1.N) : (datTwo V c).after 3 t = outTwo (blkTwo V c 0 t) (blkTwo V c 1 t) (blkTwo V c 2 t) := by dsimp only [datTwo]

theorem beforeTwo_0 (c : Dev nD) (t : Fin cfg1.N) (d) : (datTwo V c).before 0 t d = blkTwo V c 0 t :=
  beforeTwo_0_of V (datTwo V c) (A_eqTwo V c 0) (afterTwo_0 V c) t d
theorem beforeTwo_1 (c : Dev nD) (t : Fin cfg1.N) (d) : (datTwo V c).before 1 t d = blkTwo V c 1 t :=
  beforeTwo_1_of V (datTwo V c) (A_eqTwo V c 1) (afterTwo_1 V c) t d
theorem beforeTwo_2 (c : Dev nD) (t : Fin cfg1.N) (d) : (datTwo V c).before 2 t d = blkTwo V c 2 t :=
  beforeTwo_2_of V (datTwo V c) (A_eqTwo V c 2) (afterTwo_2 V c) t d

/-! ## The body obligation -/

def bodyPreTwo (c : Dev nD) (t : Fin cfg1.N) : sProp 𝕄 :=
  iprop((datTwo V c).Φ t.castSucc ∗ (datTwo V c).owesAt () t.castSucc
    ∗ (∃ d, owns (c : Thread nD τ) (st1_0 t) fullShare ((datTwo V c).before 0 t d))
    ∗ (∃ d, owns (c : Thread nD τ) (st1_1 t) fullShare ((datTwo V c).before 1 t d))
    ∗ (∃ d, owns (c : Thread nD τ) (st1_2 t) fullShare ((datTwo V c).before 2 t d))
    ∗ (∃ d, owns (c : Thread nD τ) (st1_3 t) fullShare ((datTwo V c).before 3 t d)))

def bodyPostTwo (c : Dev nD) (t : Fin cfg1.N) : sProp 𝕄 :=
  iprop((datTwo V c).Φ t.succ ∗ (datTwo V c).owesAt () t.succ
    ∗ owns (c : Thread nD τ) (st1_0 t) fullShare ((datTwo V c).after 0 t)
    ∗ owns (c : Thread nD τ) (st1_1 t) fullShare ((datTwo V c).after 1 t)
    ∗ owns (c : Thread nD τ) (st1_2 t) fullShare ((datTwo V c).after 2 t)
    ∗ owns (c : Thread nD τ) (st1_3 t) fullShare ((datTwo V c).after 3 t))

/-- The body at any point: the inputs' buffers hold their blocks, so the triple applies; the invariant and the
    core's dues pass through unread. -/
theorem sound_bodyTwo (c : Dev nD) (t : Fin cfg1.N) :
    bodyPreTwo V c t ⊢ wp frame (wpE (defs₀ (F := F)) Variants.none c none) Set.univ (bodyAt1 t) (fun _ => bodyPostTwo V c t) := by
  unfold bodyPreTwo bodyPostTwo bodyAt1
  simp only [beforeTwo_0, beforeTwo_1, beforeTwo_2]
  rw [show (datTwo V c).Φ t.succ = (datTwo V c).Φ t.castSucc from rfl,
    show (datTwo V c).owesAt () t.succ = (datTwo V c).owesAt () t.castSucc from rfl,
    afterTwo_0, afterTwo_1, afterTwo_2, afterTwo_3]
  iintro ⟨HΦ, Ho, ⟨%d0, H0⟩, ⟨%d1, H1⟩, ⟨%d2, H2⟩, ⟨%d3, H3⟩⟩
  iapply (sound_kernelTwo c Set.univ _ _ _ _ _ _ _ _ _ (blkTwo V c 0 t) (blkTwo V c 1 t) (blkTwo V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligationTwo (c : Dev nD) : BodyObligation (datTwo (F := F) V c) (defs₀ (F := F)) Variants.none () Set.univ := fun t => by
  rw [bigSep_W1, bigSep_W1]
  exact sound_bodyTwo V c t

end Cert.Kernel.Hand

end
-- ==== Proof.FrameB.Run.lean ====
/-
  The whole program as a run: the two reshapes of the bias vectors, then the first layer's region, then the second
  layer's. Between items every unscoped buffer of the core is held whole at named contents: the launch memory, then
  the reshapes' results, then the first region's arrays at what its write-backs leave (the hidden product), then the
  second region's (the result). Every weakly fair execution terminates and ends with each unscoped buffer at the last
  of these; the arguments are never written, so they end as launched.
-/
import proofs.«171362_g16277926052538_cont_week2b_966_18_alg».proof.Proof.FrameB.LayerOne
import proofs.«171362_g16277926052538_cont_week2b_966_18_alg».proof.Proof.FrameB.LayerTwo
import proofs.«171362_g16277926052538_cont_week2b_966_18_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents after each item -/

/-- The contents after the two reshapes, read at the core's references: what the first region's proof data take. -/
abbrev VHost : (c : Dev nD) → (b : Ref sig .tc) → Buf (Elt F) ((c : Thread nD τ).loc b) := fun c b => V1 m c b

/-- After the first region: its arrays at what the pipeline leaves (the inputs as entered, the hidden product's
    write-backs folded), every other buffer as entered. -/
def WOne (c : Dev nD) : Valuation τ sig (Elt F) :=
  Pipeline.withArrays spec0 c (V1 m c) fun w => (datOne (VHost m) c).arrAt w cfg0.N
theorem WOne_arr (c : Dev nD) (w : Fin cfg0.W) :
    WOne m c (Proc.devRef .tc (Pipeline.arrRef spec0 w)) = (datOne (VHost m) c).arrAt w cfg0.N := by
  unfold WOne; exact Pipeline.withArrays_arr spec0 launch0.win.arr_inj c _ _ w
theorem WOne_of_ne (c : Dev nD) (b : Ref sig .tc) (hb : ∀ w, Pipeline.arrRef spec0 w ≠ b) :
    WOne m c (Proc.devRef .tc b) = V1 m c (Proc.devRef .tc b) := by
  unfold WOne; exact Pipeline.withArrays_of_ne spec0 c _ _ b hb
/-- The same read at the core's references: what the second region's proof data take. -/
abbrev VOne : (c : Dev nD) → (b : Ref sig .tc) → Buf (Elt F) ((c : Thread nD τ).loc b) := fun c b => WOne m c b
theorem hFOne (c : Dev nD) (w : Fin cfg0.W) : (datOne (VHost m) c).arrAt w cfg0.N = VOne m c (Pipeline.arrRef spec0 w) :=
  (WOne_arr m c w).symm
theorem hrestOne (c : Dev nD) : ∀ b, b ∉ Finset.univ.image (Pipeline.arrRef spec0) → VOne m c b = VHost m c b :=
  fun b hb => WOne_of_ne m c b fun w e => hb (Finset.mem_image.mpr ⟨w, Finset.mem_univ _, e⟩)

/-- After the second region: its arrays at what the pipeline leaves, every other buffer as entered. -/
def WTwo (c : Dev nD) : Valuation τ sig (Elt F) :=
  Pipeline.withArrays spec1 c (WOne m c) fun w => (datTwo (VOne m) c).arrAt w cfg1.N
theorem WTwo_arr (c : Dev nD) (w : Fin cfg1.W) :
    WTwo m c (Proc.devRef .tc (Pipeline.arrRef spec1 w)) = (datTwo (VOne m) c).arrAt w cfg1.N := by
  unfold WTwo; exact Pipeline.withArrays_arr spec1 launch1.win.arr_inj c _ _ w
theorem WTwo_of_ne (c : Dev nD) (b : Ref sig .tc) (hb : ∀ w, Pipeline.arrRef spec1 w ≠ b) :
    WTwo m c (Proc.devRef .tc b) = WOne m c (Proc.devRef .tc b) := by
  unfold WTwo; exact Pipeline.withArrays_of_ne spec1 c _ _ b hb
abbrev VTwo : (c : Dev nD) → (b : Ref sig .tc) → Buf (Elt F) ((c : Thread nD τ).loc b) := fun c b => WTwo m c b
theorem hFTwo (c : Dev nD) (w : Fin cfg1.W) : (datTwo (VOne m) c).arrAt w cfg1.N = VTwo m c (Pipeline.arrRef spec1 w) :=
  (WTwo_arr m c w).symm
theorem hrestTwo (c : Dev nD) : ∀ b, b ∉ Finset.univ.image (Pipeline.arrRef spec1) → VTwo m c b = VOne m c b :=
  fun b hb => WTwo_of_ne m c b fun w e => hb (Finset.mem_image.mpr ⟨w, Finset.mem_univ _, e⟩)

/-! ## The arguments end as launched: a region reads an argument through an input window or not at all, and the
    reshapes write only their own results -/

theorem WTwo_main_arg0 (c : Dev nD) : WTwo m c (Proc.devRef .tc main_arg0) = m ((c : Thread nD τ).loc main_arg0) :=
  calc WTwo m c (Proc.devRef .tc main_arg0)
    _ = WOne m c (Proc.devRef .tc main_arg0) := WTwo_of_ne m c main_arg0 (by decide)
    _ = V1 m c (Proc.devRef .tc main_arg0) := (WOne_arr m c 1).trans (((datOne (VHost m) c).arrAt_in 1 rfl _).trans (A_eqOne (VHost m) c 1))
    _ = V0 m c (Proc.devRef .tc main_arg0) := V1_of m c main_arg0 (by decide)
    _ = m ((c : Thread nD τ).loc main_arg0) := rfl
theorem WTwo_main_arg1 (c : Dev nD) : WTwo m c (Proc.devRef .tc main_arg1) = m ((c : Thread nD τ).loc main_arg1) :=
  calc WTwo m c (Proc.devRef .tc main_arg1)
    _ = WOne m c (Proc.devRef .tc main_arg1) := (WTwo_arr m c 0).trans (((datTwo (VOne m) c).arrAt_in 0 rfl _).trans (A_eqTwo (VOne m) c 0))
    _ = V1 m c (Proc.devRef .tc main_arg1) := (WOne_arr m c 0).trans (((datOne (VHost m) c).arrAt_in 0 rfl _).trans (A_eqOne (VHost m) c 0))
    _ = V0 m c (Proc.devRef .tc main_arg1) := V1_of m c main_arg1 (by decide)
    _ = m ((c : Thread nD τ).loc main_arg1) := rfl
theorem WTwo_main_arg2 (c : Dev nD) : WTwo m c (Proc.devRef .tc main_arg2) = m ((c : Thread nD τ).loc main_arg2) :=
  calc WTwo m c (Proc.devRef .tc main_arg2)
    _ = WOne m c (Proc.devRef .tc main_arg2) := WTwo_of_ne m c main_arg2 (by decide)
    _ = V1 m c (Proc.devRef .tc main_arg2) := (WOne_arr m c 2).trans (((datOne (VHost m) c).arrAt_in 2 rfl _).trans (A_eqOne (VHost m) c 2))
    _ = V0 m c (Proc.devRef .tc main_arg2) := V1_of m c main_arg2 (by decide)
    _ = m ((c : Thread nD τ).loc main_arg2) := rfl
theorem WTwo_main_arg3 (c : Dev nD) : WTwo m c (Proc.devRef .tc main_arg3) = m ((c : Thread nD τ).loc main_arg3) :=
  calc WTwo m c (Proc.devRef .tc main_arg3)
    _ = WOne m c (Proc.devRef .tc main_arg3) := WTwo_of_ne m c main_arg3 (by decide)
    _ = V1 m c (Proc.devRef .tc main_arg3) := WOne_of_ne m c main_arg3 (by decide)
    _ = V0 m c (Proc.devRef .tc main_arg3) := V1_of m c main_arg3 (by decide)
    _ = m ((c : Thread nD τ).loc main_arg3) := rfl
theorem WTwo_main_arg4 (c : Dev nD) : WTwo m c (Proc.devRef .tc main_arg4) = m ((c : Thread nD τ).loc main_arg4) :=
  calc WTwo m c (Proc.devRef .tc main_arg4)
    _ = WOne m c (Proc.devRef .tc main_arg4) := WTwo_of_ne m c main_arg4 (by decide)
    _ = V1 m c (Proc.devRef .tc main_arg4) := (WOne_arr m c 4).trans (((datOne (VHost m) c).arrAt_in 4 rfl _).trans (A_eqOne (VHost m) c 4))
    _ = V0 m c (Proc.devRef .tc main_arg4) := V1_of m c main_arg4 (by decide)
    _ = m ((c : Thread nD τ).loc main_arg4) := rfl
theorem WTwo_main_arg5 (c : Dev nD) : WTwo m c (Proc.devRef .tc main_arg5) = m ((c : Thread nD τ).loc main_arg5) :=
  calc WTwo m c (Proc.devRef .tc main_arg5)
    _ = WOne m c (Proc.devRef .tc main_arg5) := WTwo_of_ne m c main_arg5 (by decide)
    _ = V1 m c (Proc.devRef .tc main_arg5) := WOne_of_ne m c main_arg5 (by decide)
    _ = V0 m c (Proc.devRef .tc main_arg5) := V1_of m c main_arg5 (by decide)
    _ = m ((c : Thread nD τ).loc main_arg5) := rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => datOne (VHost m) c
  | ⟨1, _⟩ => fun c => datTwo (VOne m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

/-- The two reshapes as a host segment from the launch contents. -/
abbrev hsegReshape : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- THE FIRST LAYER's region over the thread state: entered from every unscoped buffer at the reshapes' contents, left at `WOne`. Its arrays are split out of the unscoped buffers and put back at the exit contents; the generator register goes into the invariant and comes out; nothing is owed; the kernel has no semaphore of its own. -/
def regOne : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationOne (VHost m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (WOne m c) ∗ R c)
  X c := iprop(∃ r, prngReg c r)
  Y c := iprop(∃ r, prngReg c r)
  Z c := Pipeline.unscopedRest (Ix := Unit) (Name := ℕ) (U := UR sig nD τ) (Lvl := ℕ) spec0 c (VHost m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VHost m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinOne (VHost m) c)
    unfold Pipeline.ΦA
    iintro ⟨Hp, -, Hr⟩
    isplitl [Hr]; · iexact Hr
    iexact Hp
  hout c := by
    rw [Pipeline.ownSems0_none]
    refine BIBase.Entails.trans (houtOne (VHost m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VHost m c) (VOne m c) ((pdats m 0 c).arrAt · cfg0.N) (hFOne m c) (hrestOne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAYER's region: entered from `WOne`, left at `WTwo`. -/
def regTwo : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationTwo (VOne m) c).loose
  hwaits := Pipeline.hwaits_of_owed_zero _ _ _ _ L lv 1 fun _ _ => rfl
  pre c := iprop(StableHlo.held (c : Thread nD τ) (Pipeline.ucRefs τ sig) (WOne m c) ∗ R c)
  post c := iprop(iprop(StableHlo.held (c : Thread nD τ) (Pipeline.ucRefs τ sig) (WTwo m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VOne m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VOne m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VOne m c) (VTwo m c) ((pdats m 1 c).arrAt · cfg1.N) (hFTwo m c) (hrestTwo m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hsegReshape m), .region (regOne m), .region (regTwo m) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state holds each unscoped buffer of each core at `WTwo`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WTwo m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (WTwo m c) ∗ ∃ r, prngReg c r))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WTwo m c b)
    (hfin := fun c s' => by
      iintro ⟨⟨Hh, -⟩, HSI⟩
      unfold StableHlo.held
      imodintro
      iapply (pointsTo_read_all (Pipeline.ucRefs τ sig) (fun b => (((c : Thread nD τ)).1, b)) (WTwo m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_arg0 (by decide))).trans (WTwo_main_arg0 m c),
    (h c _ (mem_uc main_arg1 (by decide))).trans (WTwo_main_arg1 m c),
    (h c _ (mem_uc main_arg2 (by decide))).trans (WTwo_main_arg2 m c),
    (h c _ (mem_uc main_arg3 (by decide))).trans (WTwo_main_arg3 m c),
    (h c _ (mem_uc main_arg4 (by decide))).trans (WTwo_main_arg4 m c),
    (h c _ (mem_uc main_arg5 (by decide))).trans (WTwo_main_arg5 m c)⟩) (run_all m ρ)

/-- The run with the result named: the result buffer ends at what the second region's write-backs leave, the
    arguments as launched. -/
theorem run_result : θ_run defs (onTc (τ := τ) (main (F := F))) ⟨m, fun _ => 0, ρ⟩ (fun r => ∀ c : Dev nD,
      r.2.mem ((c.tc : Thread nD τ).loc main_v3) = (datTwo (VOne m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_v3 (by decide))).trans (WTwo_arr m c 3),
    (h c _ (mem_uc main_arg0 (by decide))).trans (WTwo_main_arg0 m c),
    (h c _ (mem_uc main_arg1 (by decide))).trans (WTwo_main_arg1 m c),
    (h c _ (mem_uc main_arg2 (by decide))).trans (WTwo_main_arg2 m c),
    (h c _ (mem_uc main_arg3 (by decide))).trans (WTwo_main_arg3 m c),
    (h c _ (mem_uc main_arg4 (by decide))).trans (WTwo_main_arg4 m c),
    (h c _ (mem_uc main_arg5 (by decide))).trans (WTwo_main_arg5 m c)⟩) (run_all m ρ)

end Cert.Kernel.Hand

end
-- ==== Proof.FrameI.LayerOne.lean ====
/-
  The first propagation layer as a pipeline region: at the first grid point the body computes the support
  S1 = x · W1 into a scratch buffer that stays in place for the rest of the grid; at every point it multiplies one
  stripe of 400 rows of the adjacency matrix by S1, adds the bias row, clamps below at zero and multiplies by W2.
  Stated at ANY contents V of the core's buffers when the region is entered. The invariant carries the scratch:
  before the first point it holds anything, from then on it holds x · W1 of the two resident blocks.
-/
import proofs.«171362_g16277926052538_cont_week2b_966_18_alg».proof.Proof.Gen.KernelIdeal.Launch
import proofs.«171362_g16277926052538_cont_week2b_966_18_alg».proof.Proof.Gen.KernelIdeal.Skeleton
import proofs.«171362_g16277926052538_cont_week2b_966_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blkOne (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency stripe's buffer holds its block at every point. -/
theorem beforeOne_0_of {c : Dev nD} (dat : Dat τ (Elt F) Unit ℕ (UR sig nD τ) ℕ cfg0 c) (hA : dat.A 0 = V c (Pipeline.arrRef spec0 0))
    (hafter : ∀ t, dat.after 0 t = blkOne V c 0 t) (t : Fin cfg0.N) (d) : dat.before 0 t d = blkOne V c 0 t :=
  (dat.before_in_eq_fetched 0 rfl (fun _ => rfl) (fun _ _ _ => rfl) (fun t => by rw [hafter]; unfold Dat.blockOf blkOne; rw [hA]; try rfl) t d).trans
    (by unfold Dat.fetched Dat.blockOf blkOne; rw [hA]; try rfl)
/-- The resident feature matrix: fetched once, its index never moves. -/
theorem beforeOne_1_of {c : Dev nD} (dat : Dat τ (Elt F) Unit ℕ (UR sig nD τ) ℕ cfg0 c) (hA : dat.A 1 = V c (Pipeline.arrRef spec0 1))
    (hafter : ∀ t, dat.after 1 t = blkOne V c 1 t) (t : Fin cfg0.N) (d) : dat.before 1 t d = blkOne V c 1 t :=
  (dat.before_in_eq_fetched 1 rfl (fun _ => rfl) (fun _ _ _ => rfl) (fun t => by rw [hafter]; unfold Dat.blockOf blkOne; rw [hA]; try rfl) t d).trans
    (by unfold Dat.fetched Dat.blockOf blkOne; rw [hA]; try rfl)
/-- The resident first weight matrix likewise. -/
theorem beforeOne_2_of {c : Dev nD} (dat : Dat τ (Elt F) Unit ℕ (UR sig nD τ) ℕ cfg0 c) (hA : dat.A 2 = V c (Pipeline.arrRef spec0 2))
    (hafter : ∀ t, dat.after 2 t = blkOne V c 2 t) (t : Fin cfg0.N) (d) : dat.before 2 t d = blkOne V c 2 t :=
  (dat.before_in_eq_fetched 2 rfl (fun _ => rfl) (fun _ _ _ => rfl) (fun t => by rw [hafter]; unfold Dat.blockOf blkOne; rw [hA]; try rfl) t d).trans
    (by unfold Dat.fetched Dat.blockOf blkOne; rw [hA]; try rfl)
/-- The resident first bias row likewise. -/
theorem beforeOne_3_of {c : Dev nD} (dat : Dat τ (Elt F) Unit ℕ (UR sig nD τ) ℕ cfg0 c) (hA : dat.A 3 = V c (Pipeline.arrRef spec0 3))
    (hafter : ∀ t, dat.after 3 t = blkOne V c 3 t) (t : Fin cfg0.N) (d) : dat.before 3 t d = blkOne V c 3 t :=
  (dat.before_in_eq_fetched 3 rfl (fun _ => rfl) (fun _ _ _ => rfl) (fun t => by rw [hafter]; unfold Dat.blockOf blkOne; rw [hA]; try rfl) t d).trans
    (by unfold Dat.fetched Dat.blockOf blkOne; rw [hA]; try rfl)
/-- The resident second weight matrix likewise. -/
theorem beforeOne_4_of {c : Dev nD} (dat : Dat τ (Elt F) Unit ℕ (UR sig nD τ) ℕ cfg0 c) (hA : dat.A 4 = V c (Pipeline.arrRef spec0 4))
    (hafter : ∀ t, dat.after 4 t = blkOne V c 4 t) (t : Fin cfg0.N) (d) : dat.before 4 t d = blkOne V c 4 t :=
  (dat.before_in_eq_fetched 4 rfl (fun _ => rfl) (fun _ _ _ => rfl) (fun t => by rw [hafter]; unfold Dat.blockOf blkOne; rw [hA]; try rfl) t d).trans
    (by unfold Dat.fetched Dat.blockOf blkOne; rw [hA]; try rfl)

/-! ## The body's accesses: every buffer whole, from offset zero -/

theorem off_zero : (![0, 0] : Fin 2 → Nat) = fun _ => 0 := by
  funext a; fin_cases a <;> rfl

/-- One whole store covers the support's buffer, and one the output stripe's. -/
theorem coverSupp (p0 : Vec F S10000x64 .f32) (y : S10000x64.Idx) :
    ∃ pc ∈ ([⟨Rect.unit (s := S10000x64) ![0, 0] S10000x64.size inb_S10000x64_S10000x64_0_0, p0⟩] : List (View.Piece (Elt F) S10000x64 .f32)), y ∈ pc.1.set :=
  View.cover_of_tiled [⟨Rect.unit (s := S10000x64) ![0, 0] S10000x64.size inb_S10000x64_S10000x64_0_0, p0⟩] S10000x64.size (by rfl) y
theorem coverOne (p0 : Vec F S400x32 .f32) (y : S400x32.Idx) :
    ∃ pc ∈ ([⟨Rect.unit (s := S400x32) ![0, 0] S400x32.size inb_S400x32_S400x32_0_0, p0⟩] : List (View.Piece (Elt F) S400x32 .f32)), y ∈ pc.1.set :=
  View.cover_of_tiled [⟨Rect.unit (s := S400x32) ![0, 0] S400x32.size inb_S400x32_S400x32_0_0, p0⟩] S400x32.size (by rfl) y

/-! ## Which points take the branch -/

/-- The body's one branch condition, from the grid coordinate: "this is point 0". -/
abbrev condFirst (i : grid0.Coords) : Prop := (Scalar.cmpi .ne (Scalar.extui (Scalar.cmpi .eq (BitVec.ofNat 32 (i 0).val) 0#32)) 0#32) = 1#1
/-- It holds at the first point only (decided over the 25 points). -/
theorem hcondFirst : ∀ t : Fin cfg0.N, condFirst (grid0.coords t) ↔ t.val = 0 :=
  (by decide +kernel : ∀ t : Fin grid0.N, condFirst (grid0.coords t) ↔ t.val = 0)

/-! ## The body's two triples -/

set_option maxHeartbeats 1000000 in
/-- AT THE FIRST POINT: inputs at x0..x4, the output's buffer and the scratch at anything; the body leaves the scratch
    at x1 · x2 and the output at the stripe's product computed FROM that support. -/
theorem sound_kernelOne_first (c : Dev nD) (E : Set ℕ) (i : grid0.Coords) (hc : condFirst i) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S400x32 .f32) (harg6 : arg6.IsWhole) (arg7 : Memref sig .tc .vmem S10000x64 .f32) (harg7 : arg7.IsWhole)
    (x0 : Vec F S400x10000 .f32) (x1 : Vec F S10000x128 .f32) (x2 : Vec F S128x64 .f32) (x3 : Vec F S1x64 .f32) (x4 : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay2 x0 (k0_pay1 x1 x2) x3 x4) ∗ owns (c : Thread nD τ) arg7 fullShare (k0_pay1 x1 x2)) -∗ K ⟨⟩))
      ⊢ wp frame (wpE (defs₀ (F := F)) Variants.none c none) E (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, Hk⟩
  subst hf0; subst hf1; subst hf2; subst hf3; subst hf4
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    rw [View.read_writes_eq_canon _ _ _ (coverOne _), View.canon_unit_zero off_zero, View.readCov_unit_zero _ off_zero]
    simp only [View.readAt_eq_ld, View.ld_unit_zero (S := S400x10000) off_zero, View.ld_unit_zero (S := S10000x128) off_zero,
      View.ld_unit_zero (S := S128x64) off_zero, View.ld_unit_zero (S := S1x64) off_zero, View.ld_unit_zero (S := S64x32) off_zero]
  iexists _; isplitr
  swap; · iexact H7
  ipureintro
  rw [View.read_writes_eq_canon _ _ _ (coverSupp _), View.canon_unit_zero off_zero]
  simp only [View.readAt_eq_ld, View.ld_unit_zero (S := S10000x128) off_zero, View.ld_unit_zero (S := S128x64) off_zero]

set_option maxHeartbeats 1000000 in
/-- AT ANY LATER POINT: the scratch at contents s is read and left as it is; the output is the stripe's product
    computed from s. -/
theorem sound_kernelOne_later (c : Dev nD) (E : Set ℕ) (i : grid0.Coords) (hc : ¬condFirst i) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S400x32 .f32) (harg6 : arg6.IsWhole) (arg7 : Memref sig .tc .vmem S10000x64 .f32) (harg7 : arg7.IsWhole)
    (x0 : Vec F S400x10000 .f32) (x1 : Vec F S10000x128 .f32) (x2 : Vec F S128x64 .f32) (x3 : Vec F S1x64 .f32) (x4 : Vec F S64x32 .f32) (s : Vec F S10000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay2 x0 s x3 x4) ∗ owns (c : Thread nD τ) arg7 fullShare s) -∗ K ⟨⟩))
      ⊢ wp frame (wpE (defs₀ (F := F)) Variants.none c none) E (cc0__layer1_body i arg1 harg1 arg2 harg2 arg3 harg3 arg4 harg4 arg5 harg5 arg6 harg6 arg7 harg7) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%f7, %hf7, H7⟩, Hk⟩
  subst hf0; subst hf1; subst hf2; subst hf3; subst hf4; subst hf7
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    rw [View.read_writes_eq_canon _ _ _ (coverOne _), View.canon_unit_zero off_zero]
    simp only [View.readAt_eq_ld, View.ld_unit_zero (S := S400x10000) off_zero, View.ld_unit_zero (S := S10000x64) off_zero,
      View.ld_unit_zero (S := S1x64) off_zero, View.ld_unit_zero (S := S64x32) off_zero]
  iexists f7; isplitr; · ipureintro; rfl
  iexact H7

/-! ## The invariant: the support stays in the scratch -/

/-- The scratch the kernel keeps between points. -/
abbrev scM : Memref sig .tc .vmem S10000x64 .f32 := Memref.whole cc0_scratch0
/-- The first point of the grid. -/
abbrev first : Fin cfg0.N := ⟨0, by decide⟩
/-- The support x · W1, of the two resident blocks as the first point finds them. -/
def supp (c : Dev nD) : Vec F S10000x64 .f32 := k0_pay1 (blkOne V c 1 first) (blkOne V c 2 first)

/-- The core's other scoped buffers that are no staging buffer of this region (the second layer's staging buffers),
    each whole at some contents: they ride along untouched. -/
abbrev restOne (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch as a memref owned at some contents. -/
theorem PhiA_eq (c : Dev nD) :
    (Pipeline.ΦA spec0 c : sProp 𝕄)
      = iprop(iprop((∃ d, owns (c : Thread nD τ) scM fullShare d) ∗ restOne c) ∗ (∃ r, prngReg c r)) := by
  unfold Pipeline.ΦA; rw [scopedRest0_eq]; simp only [scM, owns_whole]; try rfl

/-- The region's invariant before position n: before the first point the scratch holds anything; afterwards the support. -/
def PhiOne (c : Dev nD) : ℕ → sProp 𝕄
  | 0 => Pipeline.ΦA spec0 c
  | _ + 1 => iprop(iprop(owns (c : Thread nD τ) scM fullShare (supp V c) ∗ restOne c) ∗ (∃ r, prngReg c r))

theorem PhiOne_zero (c : Dev nD) (n : ℕ) (hz : n = 0) : PhiOne V c n = Pipeline.ΦA spec0 c := by
  subst hz; rfl
theorem PhiOne_succ (c : Dev nD) (n : ℕ) :
    PhiOne V c (n + 1) = iprop(iprop(owns (c : Thread nD τ) scM fullShare (supp V c) ∗ restOne c) ∗ (∃ r, prngReg c r)) := rfl
theorem PhiOne_pos (c : Dev nD) (n : ℕ) (hz : n ≠ 0) :
    PhiOne V c n = iprop(iprop(owns (c : Thread nD τ) scM fullShare (supp V c) ∗ restOne c) ∗ (∃ r, prngReg c r)) := by
  cases n with
  | zero => exact absurd rfl hz
  | succ n => rfl

/-! ## The proof data -/

/-- The proof data of the first layer's pipeline on core c: the arrays as the region finds them; after the body at
    point t each input's buffer at its block and the output's at the stripe's product from the support; the
    invariant `PhiOne`; nothing owed; full shares. -/
def datOne (c : Dev nD) : Dat τ (Elt F) Unit ℕ (UR sig nD τ) ℕ cfg0 c where
  A w := V c (Pipeline.arrRef spec0 w)
  after w t := match w with
    | ⟨0, _⟩ => blkOne V c 0 t
    | ⟨1, _⟩ => blkOne V c 1 t
    | ⟨2, _⟩ => blkOne V c 2 t
    | ⟨3, _⟩ => blkOne V c 3 t
    | ⟨4, _⟩ => blkOne V c 4 t
    | ⟨5, _⟩ => k0_pay2 (blkOne V c 0 t) (supp V c) (blkOne V c 3 t) (blkOne V c 4 t)
  Φ t := PhiOne V c t.val
  q _ := fullShare
  owed _ := 0

theorem A_eqOne (c : Dev nD) (w : Fin cfg0.W) : (datOne V c).A w = V c (Pipeline.arrRef spec0 w) := by
  dsimp only [datOne]
theorem afterOne_0 (c : Dev nD) (t : Fin cfg0.N) : (datOne V c).after 0 t = blkOne V c 0 t := by dsimp only [datOne]
theorem afterOne_1 (c : Dev nD) (t : Fin cfg0.N) : (datOne V c).after 1 t = blkOne V c 1 t := by dsimp only [datOne]
theorem afterOne_2 (c : Dev nD) (t : Fin cfg0.N) : (datOne V c).after 2 t = blkOne V c 2 t := by dsimp only [datOne]
theorem afterOne_3 (c : Dev nD) (t : Fin cfg0.N) : (datOne V c).after 3 t = blkOne V c 3 t := by dsimp only [datOne]
theorem afterOne_4 (c : Dev nD) (t : Fin cfg0.N) : (datOne V c).after 4 t = blkOne V c 4 t := by dsimp only [datOne]
theorem afterOne_5 (c : Dev nD) (t : Fin cfg0.N) :
    (datOne V c).after 5 t = k0_pay2 (blkOne V c 0 t) (supp V c) (blkOne V c 3 t) (blkOne V c 4 t) := by dsimp only [datOne]

theorem beforeOne_0 (c : Dev nD) (t : Fin cfg0.N) (d) : (datOne V c).before 0 t d = blkOne V c 0 t :=
  beforeOne_0_of V (datOne V c) (A_eqOne V c 0) (afterOne_0 V c) t d
theorem beforeOne_1 (c : Dev nD) (t : Fin cfg0.N) (d) : (datOne V c).before 1 t d = blkOne V c 1 t :=
  beforeOne_1_of V (datOne V c) (A_eqOne V c 1) (afterOne_1 V c) t d
theorem beforeOne_2 (c : Dev nD) (t : Fin cfg0.N) (d) : (datOne V c).before 2 t d = blkOne V c 2 t :=
  beforeOne_2_of V (datOne V c) (A_eqOne V c 2) (afterOne_2 V c) t d
theorem beforeOne_3 (c : Dev nD) (t : Fin cfg0.N) (d) : (datOne V c).before 3 t d = blkOne V c 3 t :=
  beforeOne_3_of V (datOne V c) (A_eqOne V c 3) (afterOne_3 V c) t d
theorem beforeOne_4 (c : Dev nD) (t : Fin cfg0.N) (d) : (datOne V c).before 4 t d = blkOne V c 4 t :=
  beforeOne_4_of V (datOne V c) (A_eqOne V c 4) (afterOne_4 V c) t d

/-! ## The body obligation -/

def bodyPreOne (c : Dev nD) (t : Fin cfg0.N) : sProp 𝕄 :=
  iprop((datOne V c).Φ t.castSucc ∗ (datOne V c).owesAt () t.castSucc
    ∗ (∃ d, owns (c : Thread nD τ) (st0_0 t) fullShare ((datOne V c).before 0 t d))
    ∗ (∃ d, owns (c : Thread nD τ) (st0_1 t) fullShare ((datOne V c).before 1 t d))
    ∗ (∃ d, owns (c : Thread nD τ) (st0_2 t) fullShare ((datOne V c).before 2 t d))
    ∗ (∃ d, owns (c : Thread nD τ) (st0_3 t) fullShare ((datOne V c).before 3 t d))
    ∗ (∃ d, owns (c : Thread nD τ) (st0_4 t) fullShare ((datOne V c).before 4 t d))
    ∗ (∃ d, owns (c : Thread nD τ) (st0_5 t) fullShare ((datOne V c).before 5 t d)))

def bodyPostOne (c : Dev nD) (t : Fin cfg0.N) : sProp 𝕄 :=
  iprop((datOne V c).Φ t.succ ∗ (datOne V c).owesAt () t.succ
    ∗ owns (c : Thread nD τ) (st0_0 t) fullShare ((datOne V c).after 0 t)
    ∗ owns (c : Thread nD τ) (st0_1 t) fullShare ((datOne V c).after 1 t)
    ∗ owns (c : Thread nD τ) (st0_2 t) fullShare ((datOne V c).after 2 t)
    ∗ owns (c : Thread nD τ) (st0_3 t) fullShare ((datOne V c).after 3 t)
    ∗ owns (c : Thread nD τ) (st0_4 t) fullShare ((datOne V c).after 4 t)
    ∗ owns (c : Thread nD τ) (st0_5 t) fullShare ((datOne V c).after 5 t))

set_option maxHeartbeats 2000000 in
/-- The body at any point. At the first point the invariant hands it the scratch at anything and takes it back at the
    support; at a later point it hands it the support and takes it back unchanged. -/
theorem sound_bodyOne (c : Dev nD) (t : Fin cfg0.N) :
    bodyPreOne V c t ⊢ wp frame (wpE (defs₀ (F := F)) Variants.none c none) Set.univ (bodyAt0 t) (fun _ => bodyPostOne V c t) := by
  unfold bodyPreOne bodyPostOne bodyAt0
  simp only [beforeOne_0, beforeOne_1, beforeOne_2, beforeOne_3, beforeOne_4]
  rw [show (datOne V c).owesAt () t.succ = (datOne V c).owesAt () t.castSucc from rfl,
    show (datOne V c).Φ t.succ = PhiOne V c (t.val + 1) from rfl, PhiOne_succ,
    show (datOne V c).Φ t.castSucc = PhiOne V c t.val from rfl,
    afterOne_0, afterOne_1, afterOne_2, afterOne_3, afterOne_4, afterOne_5]
  by_cases hz : t.val = 0
  · obtain rfl : t = first := Fin.ext hz
    rw [PhiOne_zero V c _ rfl, PhiA_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (sound_kernelOne_first c Set.univ (grid0.coords first) ((hcondFirst first).mpr rfl) _ _ _ _ _ _ _ _ _ _ _ _ _ _
      (blkOne V c 0 first) (blkOne V c 1 first) (blkOne V c 2 first) (blkOne V c 3 first) (blkOne V c 4 first) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiOne_pos V c _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (sound_kernelOne_later c Set.univ (grid0.coords t) (fun h => hz ((hcondFirst t).mp h)) _ _ _ _ _ _ _ _ _ _ _ _ _ _
      (blkOne V c 0 t) (blkOne V c 1 t) (blkOne V c 2 t) (blkOne V c 3 t) (blkOne V c 4 t) (supp V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

theorem body_obligationOne (c : Dev nD) : BodyObligation (datOne (F := F) V c) (defs₀ (F := F)) Variants.none () Set.univ := fun t => by
  rw [bigSep_W0, bigSep_W0]
  exact sound_bodyOne V c t

/-! ## Into the invariant and out of it -/

/-- What the launch hands the region is the invariant before the first point. -/
theorem hinOne (c : Dev nD) : Pipeline.ΦA spec0 c ⊢ (datOne V c).Φ 0 := by
  rw [show (datOne V c).Φ 0 = PhiOne V c 0 from rfl, PhiOne_zero V c 0 rfl]
  try exact Idealize.SL.BI.Entails.refl _

/-- After the last point the invariant gives the class invariant back: the scratch's contents are forgotten. -/
theorem houtOne (c : Dev nD) : (datOne V c).Φ (Fin.last cfg0.N) ⊢ Pipeline.ΦA spec0 c := by
  rw [show (datOne V c).Φ (Fin.last cfg0.N) = PhiOne V c (Fin.last cfg0.N).val from rfl,
    PhiOne_pos V c _ (by rw [Fin.val_last]; have : cfg0.N = 25 := N_0; omega), PhiA_eq]
  iintro ⟨⟨HS, Hrest⟩, Hg⟩
  isplitl [HS Hrest]
  · isplitl [HS]
    · iexists _; iexact HS
    iexact Hrest
  iexact Hg

end Cert.KernelIdeal.Hand

end
-- ==== Proof.FrameI.LayerTwo.lean ====
/-
  The second propagation layer as a pipeline region: at grid point t the body multiplies one stripe of 400 rows
  of the adjacency matrix by the whole hidden product S2 and adds the bias row. Stated at ANY contents V of the
  core's buffers when the region is entered: each window's block at a point, what the body's one store leaves in
  the output stripe's buffer, the body's triple, the proof data and the obligation at every point.
-/
import proofs.«171362_g16277926052538_cont_week2b_966_18_alg».proof.Proof.Gen.KernelIdeal.Launch
import proofs.«171362_g16277926052538_cont_week2b_966_18_alg».proof.Proof.Gen.KernelIdeal.Skeleton
import proofs.«171362_g16277926052538_cont_week2b_966_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blkTwo (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency stripe's buffer holds its block at every point. -/
theorem beforeTwo_0_of {c : Dev nD} (dat : Dat τ (Elt F) Unit ℕ (UR sig nD τ) ℕ cfg1 c) (hA : dat.A 0 = V c (Pipeline.arrRef spec1 0))
    (hafter : ∀ t, dat.after 0 t = blkTwo V c 0 t) (t : Fin cfg1.N) (d) : dat.before 0 t d = blkTwo V c 0 t :=
  (dat.before_in_eq_fetched 0 rfl (fun _ => rfl) (fun _ _ _ => rfl) (fun t => by rw [hafter]; unfold Dat.blockOf blkTwo; rw [hA]; try rfl) t d).trans
    (by unfold Dat.fetched Dat.blockOf blkTwo; rw [hA]; try rfl)
/-- The resident hidden product's buffer holds the whole array at every point: fetched once, its index never moves. -/
theorem beforeTwo_1_of {c : Dev nD} (dat : Dat τ (Elt F) Unit ℕ (UR sig nD τ) ℕ cfg1 c) (hA : dat.A 1 = V c (Pipeline.arrRef spec1 1))
    (hafter : ∀ t, dat.after 1 t = blkTwo V c 1 t) (t : Fin cfg1.N) (d) : dat.before 1 t d = blkTwo V c 1 t :=
  (dat.before_in_eq_fetched 1 rfl (fun _ => rfl) (fun _ _ _ => rfl) (fun t => by rw [hafter]; unfold Dat.blockOf blkTwo; rw [hA]; try rfl) t d).trans
    (by unfold Dat.fetched Dat.blockOf blkTwo; rw [hA]; try rfl)
/-- The bias row's buffer likewise. -/
theorem beforeTwo_2_of {c : Dev nD} (dat : Dat τ (Elt F) Unit ℕ (UR sig nD τ) ℕ cfg1 c) (hA : dat.A 2 = V c (Pipeline.arrRef spec1 2))
    (hafter : ∀ t, dat.after 2 t = blkTwo V c 2 t) (t : Fin cfg1.N) (d) : dat.before 2 t d = blkTwo V c 2 t :=
  (dat.before_in_eq_fetched 2 rfl (fun _ => rfl) (fun _ _ _ => rfl) (fun t => by rw [hafter]; unfold Dat.blockOf blkTwo; rw [hA]; try rfl) t d).trans
    (by unfold Dat.fetched Dat.blockOf blkTwo; rw [hA]; try rfl)

/-! ## The body's accesses: each buffer whole -/

abbrev rAdj : Rect S400x10000 := Rect.unit (s := S400x10000) ![0, 0] S400x10000.size inb_S400x10000_S400x10000_0_0
abbrev rHid : Rect S10000x32 := Rect.unit (s := S10000x32) ![0, 0] S10000x32.size inb_S10000x32_S10000x32_0_0
abbrev rB2 : Rect S1x32 := Rect.unit (s := S1x32) ![0, 0] S1x32.size inb_S1x32_S1x32_0_0
abbrev rOut : Rect S400x32 := Rect.unit (s := S400x32) ![0, 0] S400x32.size inb_S400x32_S400x32_0_0

/-- The output stripe's buffer after the body: its one whole store, of stripe × hidden product + bias row. -/
def outTwo (x0 : Vec F S400x10000 .f32) (x1 : Vec F S10000x32 .f32) (x2 : Vec F S1x32 .f32) : Vec F S400x32 .f32 :=
  View.canon [⟨rOut, k1_pay1 (View.ld x0 rAdj) (View.ld x1 rHid) (View.ld x2 rB2)⟩]

/-- The one store covers the buffer. -/
theorem coverTwo (p0 : Vec F S400x32 .f32) (y : S400x32.Idx) :
    ∃ pc ∈ ([⟨rOut, p0⟩] : List (View.Piece (Elt F) S400x32 .f32)), y ∈ pc.1.set :=
  View.cover_of_tiled [⟨rOut, p0⟩] S400x32.size (by rfl) y

/-! ## The body's triple -/

set_option maxHeartbeats 1000000 in
/-- The body on whole staging memrefs, the inputs' at contents x0 x1 x2 and the output's at anything, runs to the
    continuation holding the inputs' as they were and the output's at `outTwo` of them. -/
theorem sound_kernelTwo (c : Dev nD) (E : Set ℕ) (i : grid1.Coords) (arg1 : Memref sig .tc .vmem S400x10000 .f32) (harg1 : arg1.IsWhole) (arg2 : Memref sig .tc .vmem S10000x32 .f32) (harg2 : arg2.IsWhole) (arg3 : Memref sig .tc .vmem S1x32 .f32) (harg3 : arg3.IsWhole) (arg4 : Memref sig .tc .vmem S400x32 .f32) (harg4 : arg4.IsWhole)
    (x0 : Vec F S400x10000 .f32) (x1 : Vec F S10000x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outTwo x0 x1 x2)) -∗ K ⟨⟩))
      ⊢ wp frame (wpE (defs₀ (F := F)) Variants.none c none) E (cc1__layer2_body i arg1 harg1 arg2 harg2 arg3 harg3 arg4 harg4) K := by
  simp only [cc1__layer2_body_eq_skeleton]; unfold cc1__layer2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverTwo _)

/-! ## The proof data -/

/-- The proof data of the second layer's pipeline on core c: the arrays as the region finds them; after the body at
    point t each input's buffer at its block and the output's at `outTwo` of the input blocks; the invariant the
    scoped buffers no window stages and the generator register, untouched; nothing owed; full shares. -/
def datTwo (c : Dev nD) : Dat τ (Elt F) Unit ℕ (UR sig nD τ) ℕ cfg1 c where
  A w := V c (Pipeline.arrRef spec1 w)
  after w t := match w with
    | ⟨0, _⟩ => blkTwo V c 0 t
    | ⟨1, _⟩ => blkTwo V c 1 t
    | ⟨2, _⟩ => blkTwo V c 2 t
    | ⟨3, _⟩ => outTwo (blkTwo V c 0 t) (blkTwo V c 1 t) (blkTwo V c 2 t)
  Φ _ := Pipeline.ΦA spec1 c
  q _ := fullShare
  owed _ := 0

theorem A_eqTwo (c : Dev nD) (w : Fin cfg1.W) : (datTwo V c).A w = V c (Pipeline.arrRef spec1 w) := by
  dsimp only [datTwo]
theorem afterTwo_0 (c : Dev nD) (t : Fin cfg1.N) : (datTwo V c).after 0 t = blkTwo V c 0 t := by dsimp only [datTwo]
theorem afterTwo_1 (c : Dev nD) (t : Fin cfg1.N) : (datTwo V c).after 1 t = blkTwo V c 1 t := by dsimp only [datTwo]
theorem afterTwo_2 (c : Dev nD) (t : Fin cfg1.N) : (datTwo V c).after 2 t = blkTwo V c 2 t := by dsimp only [datTwo]
theorem afterTwo_3 (c : Dev nD) (t : Fin cfg1.N) : (datTwo V c).after 3 t = outTwo (blkTwo V c 0 t) (blkTwo V c 1 t) (blkTwo V c 2 t) := by dsimp only [datTwo]

theorem beforeTwo_0 (c : Dev nD) (t : Fin cfg1.N) (d) : (datTwo V c).before 0 t d = blkTwo V c 0 t :=
  beforeTwo_0_of V (datTwo V c) (A_eqTwo V c 0) (afterTwo_0 V c) t d
theorem beforeTwo_1 (c : Dev nD) (t : Fin cfg1.N) (d) : (datTwo V c).before 1 t d = blkTwo V c 1 t :=
  beforeTwo_1_of V (datTwo V c) (A_eqTwo V c 1) (afterTwo_1 V c) t d
theorem beforeTwo_2 (c : Dev nD) (t : Fin cfg1.N) (d) : (datTwo V c).before 2 t d = blkTwo V c 2 t :=
  beforeTwo_2_of V (datTwo V c) (A_eqTwo V c 2) (afterTwo_2 V c) t d

/-! ## The body obligation -/

def bodyPreTwo (c : Dev nD) (t : Fin cfg1.N) : sProp 𝕄 :=
  iprop((datTwo V c).Φ t.castSucc ∗ (datTwo V c).owesAt () t.castSucc
    ∗ (∃ d, owns (c : Thread nD τ) (st1_0 t) fullShare ((datTwo V c).before 0 t d))
    ∗ (∃ d, owns (c : Thread nD τ) (st1_1 t) fullShare ((datTwo V c).before 1 t d))
    ∗ (∃ d, owns (c : Thread nD τ) (st1_2 t) fullShare ((datTwo V c).before 2 t d))
    ∗ (∃ d, owns (c : Thread nD τ) (st1_3 t) fullShare ((datTwo V c).before 3 t d)))

def bodyPostTwo (c : Dev nD) (t : Fin cfg1.N) : sProp 𝕄 :=
  iprop((datTwo V c).Φ t.succ ∗ (datTwo V c).owesAt () t.succ
    ∗ owns (c : Thread nD τ) (st1_0 t) fullShare ((datTwo V c).after 0 t)
    ∗ owns (c : Thread nD τ) (st1_1 t) fullShare ((datTwo V c).after 1 t)
    ∗ owns (c : Thread nD τ) (st1_2 t) fullShare ((datTwo V c).after 2 t)
    ∗ owns (c : Thread nD τ) (st1_3 t) fullShare ((datTwo V c).after 3 t))

/-- The body at any point: the inputs' buffers hold their blocks, so the triple applies; the invariant and the
    core's dues pass through unread. -/
theorem sound_bodyTwo (c : Dev nD) (t : Fin cfg1.N) :
    bodyPreTwo V c t ⊢ wp frame (wpE (defs₀ (F := F)) Variants.none c none) Set.univ (bodyAt1 t) (fun _ => bodyPostTwo V c t) := by
  unfold bodyPreTwo bodyPostTwo bodyAt1
  simp only [beforeTwo_0, beforeTwo_1, beforeTwo_2]
  rw [show (datTwo V c).Φ t.succ = (datTwo V c).Φ t.castSucc from rfl,
    show (datTwo V c).owesAt () t.succ = (datTwo V c).owesAt () t.castSucc from rfl,
    afterTwo_0, afterTwo_1, afterTwo_2, afterTwo_3]
  iintro ⟨HΦ, Ho, ⟨%d0, H0⟩, ⟨%d1, H1⟩, ⟨%d2, H2⟩, ⟨%d3, H3⟩⟩
  iapply (sound_kernelTwo c Set.univ _ _ _ _ _ _ _ _ _ (blkTwo V c 0 t) (blkTwo V c 1 t) (blkTwo V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligationTwo (c : Dev nD) : BodyObligation (datTwo (F := F) V c) (defs₀ (F := F)) Variants.none () Set.univ := fun t => by
  rw [bigSep_W1, bigSep_W1]
  exact sound_bodyTwo V c t

end Cert.KernelIdeal.Hand

end
-- ==== Proof.FrameI.Run.lean ====
/-
  The whole program as a run: the two reshapes of the bias vectors, then the first layer's region, then the second
  layer's. Between items every unscoped buffer of the core is held whole at named contents: the launch memory, then
  the reshapes' results, then the first region's arrays at what its write-backs leave (the hidden product), then the
  second region's (the result). Every weakly fair execution terminates and ends with each unscoped buffer at the last
  of these; the arguments are never written, so they end as launched.
-/
import proofs.«171362_g16277926052538_cont_week2b_966_18_alg».proof.Proof.FrameI.LayerOne
import proofs.«171362_g16277926052538_cont_week2b_966_18_alg».proof.Proof.FrameI.LayerTwo
import proofs.«171362_g16277926052538_cont_week2b_966_18_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents after each item -/

/-- The contents after the two reshapes, read at the core's references: what the first region's proof data take. -/
abbrev VHost : (c : Dev nD) → (b : Ref sig .tc) → Buf (Elt F) ((c : Thread nD τ).loc b) := fun c b => V1 m c b

/-- After the first region: its arrays at what the pipeline leaves (the inputs as entered, the hidden product's
    write-backs folded), every other buffer as entered. -/
def WOne (c : Dev nD) : Valuation τ sig (Elt F) :=
  Pipeline.withArrays spec0 c (V1 m c) fun w => (datOne (VHost m) c).arrAt w cfg0.N
theorem WOne_arr (c : Dev nD) (w : Fin cfg0.W) :
    WOne m c (Proc.devRef .tc (Pipeline.arrRef spec0 w)) = (datOne (VHost m) c).arrAt w cfg0.N := by
  unfold WOne; exact Pipeline.withArrays_arr spec0 launch0.win.arr_inj c _ _ w
theorem WOne_of_ne (c : Dev nD) (b : Ref sig .tc) (hb : ∀ w, Pipeline.arrRef spec0 w ≠ b) :
    WOne m c (Proc.devRef .tc b) = V1 m c (Proc.devRef .tc b) := by
  unfold WOne; exact Pipeline.withArrays_of_ne spec0 c _ _ b hb
/-- The same read at the core's references: what the second region's proof data take. -/
abbrev VOne : (c : Dev nD) → (b : Ref sig .tc) → Buf (Elt F) ((c : Thread nD τ).loc b) := fun c b => WOne m c b
theorem hFOne (c : Dev nD) (w : Fin cfg0.W) : (datOne (VHost m) c).arrAt w cfg0.N = VOne m c (Pipeline.arrRef spec0 w) :=
  (WOne_arr m c w).symm
theorem hrestOne (c : Dev nD) : ∀ b, b ∉ Finset.univ.image (Pipeline.arrRef spec0) → VOne m c b = VHost m c b :=
  fun b hb => WOne_of_ne m c b fun w e => hb (Finset.mem_image.mpr ⟨w, Finset.mem_univ _, e⟩)

/-- After the second region: its arrays at what the pipeline leaves, every other buffer as entered. -/
def WTwo (c : Dev nD) : Valuation τ sig (Elt F) :=
  Pipeline.withArrays spec1 c (WOne m c) fun w => (datTwo (VOne m) c).arrAt w cfg1.N
theorem WTwo_arr (c : Dev nD) (w : Fin cfg1.W) :
    WTwo m c (Proc.devRef .tc (Pipeline.arrRef spec1 w)) = (datTwo (VOne m) c).arrAt w cfg1.N := by
  unfold WTwo; exact Pipeline.withArrays_arr spec1 launch1.win.arr_inj c _ _ w
theorem WTwo_of_ne (c : Dev nD) (b : Ref sig .tc) (hb : ∀ w, Pipeline.arrRef spec1 w ≠ b) :
    WTwo m c (Proc.devRef .tc b) = WOne m c (Proc.devRef .tc b) := by
  unfold WTwo; exact Pipeline.withArrays_of_ne spec1 c _ _ b hb
abbrev VTwo : (c : Dev nD) → (b : Ref sig .tc) → Buf (Elt F) ((c : Thread nD τ).loc b) := fun c b => WTwo m c b
theorem hFTwo (c : Dev nD) (w : Fin cfg1.W) : (datTwo (VOne m) c).arrAt w cfg1.N = VTwo m c (Pipeline.arrRef spec1 w) :=
  (WTwo_arr m c w).symm
theorem hrestTwo (c : Dev nD) : ∀ b, b ∉ Finset.univ.image (Pipeline.arrRef spec1) → VTwo m c b = VOne m c b :=
  fun b hb => WTwo_of_ne m c b fun w e => hb (Finset.mem_image.mpr ⟨w, Finset.mem_univ _, e⟩)

/-! ## The arguments end as launched: a region reads an argument through an input window or not at all, and the
    reshapes write only their own results -/

theorem WTwo_main_arg0 (c : Dev nD) : WTwo m c (Proc.devRef .tc main_arg0) = m ((c : Thread nD τ).loc main_arg0) :=
  calc WTwo m c (Proc.devRef .tc main_arg0)
    _ = WOne m c (Proc.devRef .tc main_arg0) := WTwo_of_ne m c main_arg0 (by decide)
    _ = V1 m c (Proc.devRef .tc main_arg0) := (WOne_arr m c 1).trans (((datOne (VHost m) c).arrAt_in 1 rfl _).trans (A_eqOne (VHost m) c 1))
    _ = V0 m c (Proc.devRef .tc main_arg0) := V1_of m c main_arg0 (by decide)
    _ = m ((c : Thread nD τ).loc main_arg0) := rfl
theorem WTwo_main_arg1 (c : Dev nD) : WTwo m c (Proc.devRef .tc main_arg1) = m ((c : Thread nD τ).loc main_arg1) :=
  calc WTwo m c (Proc.devRef .tc main_arg1)
    _ = WOne m c (Proc.devRef .tc main_arg1) := (WTwo_arr m c 0).trans (((datTwo (VOne m) c).arrAt_in 0 rfl _).trans (A_eqTwo (VOne m) c 0))
    _ = V1 m c (Proc.devRef .tc main_arg1) := (WOne_arr m c 0).trans (((datOne (VHost m) c).arrAt_in 0 rfl _).trans (A_eqOne (VHost m) c 0))
    _ = V0 m c (Proc.devRef .tc main_arg1) := V1_of m c main_arg1 (by decide)
    _ = m ((c : Thread nD τ).loc main_arg1) := rfl
theorem WTwo_main_arg2 (c : Dev nD) : WTwo m c (Proc.devRef .tc main_arg2) = m ((c : Thread nD τ).loc main_arg2) :=
  calc WTwo m c (Proc.devRef .tc main_arg2)
    _ = WOne m c (Proc.devRef .tc main_arg2) := WTwo_of_ne m c main_arg2 (by decide)
    _ = V1 m c (Proc.devRef .tc main_arg2) := (WOne_arr m c 2).trans (((datOne (VHost m) c).arrAt_in 2 rfl _).trans (A_eqOne (VHost m) c 2))
    _ = V0 m c (Proc.devRef .tc main_arg2) := V1_of m c main_arg2 (by decide)
    _ = m ((c : Thread nD τ).loc main_arg2) := rfl
theorem WTwo_main_arg3 (c : Dev nD) : WTwo m c (Proc.devRef .tc main_arg3) = m ((c : Thread nD τ).loc main_arg3) :=
  calc WTwo m c (Proc.devRef .tc main_arg3)
    _ = WOne m c (Proc.devRef .tc main_arg3) := WTwo_of_ne m c main_arg3 (by decide)
    _ = V1 m c (Proc.devRef .tc main_arg3) := WOne_of_ne m c main_arg3 (by decide)
    _ = V0 m c (Proc.devRef .tc main_arg3) := V1_of m c main_arg3 (by decide)
    _ = m ((c : Thread nD τ).loc main_arg3) := rfl
theorem WTwo_main_arg4 (c : Dev nD) : WTwo m c (Proc.devRef .tc main_arg4) = m ((c : Thread nD τ).loc main_arg4) :=
  calc WTwo m c (Proc.devRef .tc main_arg4)
    _ = WOne m c (Proc.devRef .tc main_arg4) := WTwo_of_ne m c main_arg4 (by decide)
    _ = V1 m c (Proc.devRef .tc main_arg4) := (WOne_arr m c 4).trans (((datOne (VHost m) c).arrAt_in 4 rfl _).trans (A_eqOne (VHost m) c 4))
    _ = V0 m c (Proc.devRef .tc main_arg4) := V1_of m c main_arg4 (by decide)
    _ = m ((c : Thread nD τ).loc main_arg4) := rfl
theorem WTwo_main_arg5 (c : Dev nD) : WTwo m c (Proc.devRef .tc main_arg5) = m ((c : Thread nD τ).loc main_arg5) :=
  calc WTwo m c (Proc.devRef .tc main_arg5)
    _ = WOne m c (Proc.devRef .tc main_arg5) := WTwo_of_ne m c main_arg5 (by decide)
    _ = V1 m c (Proc.devRef .tc main_arg5) := WOne_of_ne m c main_arg5 (by decide)
    _ = V0 m c (Proc.devRef .tc main_arg5) := V1_of m c main_arg5 (by decide)
    _ = m ((c : Thread nD τ).loc main_arg5) := rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => datOne (VHost m) c
  | ⟨1, _⟩ => fun c => datTwo (VOne m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

/-- The two reshapes as a host segment from the launch contents. -/
abbrev hsegReshape : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- THE FIRST LAYER's region over the thread state: entered from every unscoped buffer at the reshapes' contents, left at `WOne`. Its arrays are split out of the unscoped buffers and put back at the exit contents; the generator register goes into the invariant and comes out; nothing is owed; the kernel has no semaphore of its own. -/
def regOne : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationOne (VHost m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (WOne m c) ∗ R c)
  X c := iprop(∃ r, prngReg c r)
  Y c := iprop(∃ r, prngReg c r)
  Z c := Pipeline.unscopedRest (Ix := Unit) (Name := ℕ) (U := UR sig nD τ) (Lvl := ℕ) spec0 c (VHost m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VHost m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinOne (VHost m) c)
    unfold Pipeline.ΦA
    iintro ⟨Hp, -, Hr⟩
    isplitl [Hr]; · iexact Hr
    iexact Hp
  hout c := by
    rw [Pipeline.ownSems0_none]
    refine BIBase.Entails.trans (houtOne (VHost m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VHost m c) (VOne m c) ((pdats m 0 c).arrAt · cfg0.N) (hFOne m c) (hrestOne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAYER's region: entered from `WOne`, left at `WTwo`. -/
def regTwo : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationTwo (VOne m) c).loose
  hwaits := Pipeline.hwaits_of_owed_zero _ _ _ _ L lv 1 fun _ _ => rfl
  pre c := iprop(StableHlo.held (c : Thread nD τ) (Pipeline.ucRefs τ sig) (WOne m c) ∗ R c)
  post c := iprop(iprop(StableHlo.held (c : Thread nD τ) (Pipeline.ucRefs τ sig) (WTwo m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VOne m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VOne m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VOne m c) (VTwo m c) ((pdats m 1 c).arrAt · cfg1.N) (hFTwo m c) (hrestTwo m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hsegReshape m), .region (regOne m), .region (regTwo m) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state holds each unscoped buffer of each core at `WTwo`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WTwo m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (WTwo m c) ∗ ∃ r, prngReg c r))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WTwo m c b)
    (hfin := fun c s' => by
      iintro ⟨⟨Hh, -⟩, HSI⟩
      unfold StableHlo.held
      imodintro
      iapply (pointsTo_read_all (Pipeline.ucRefs τ sig) (fun b => (((c : Thread nD τ)).1, b)) (WTwo m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_arg0 (by decide))).trans (WTwo_main_arg0 m c),
    (h c _ (mem_uc main_arg1 (by decide))).trans (WTwo_main_arg1 m c),
    (h c _ (mem_uc main_arg2 (by decide))).trans (WTwo_main_arg2 m c),
    (h c _ (mem_uc main_arg3 (by decide))).trans (WTwo_main_arg3 m c),
    (h c _ (mem_uc main_arg4 (by decide))).trans (WTwo_main_arg4 m c),
    (h c _ (mem_uc main_arg5 (by decide))).trans (WTwo_main_arg5 m c)⟩) (run_all m ρ)

/-- The run with the result named: the result buffer ends at what the second region's write-backs leave, the
    arguments as launched. -/
theorem run_result : θ_run defs (onTc (τ := τ) (main (F := F))) ⟨m, fun _ => 0, ρ⟩ (fun r => ∀ c : Dev nD,
      r.2.mem ((c.tc : Thread nD τ).loc main_v3) = (datTwo (VOne m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_v3 (by decide))).trans (WTwo_arr m c 3),
    (h c _ (mem_uc main_arg0 (by decide))).trans (WTwo_main_arg0 m c),
    (h c _ (mem_uc main_arg1 (by decide))).trans (WTwo_main_arg1 m c),
    (h c _ (mem_uc main_arg2 (by decide))).trans (WTwo_main_arg2 m c),
    (h c _ (mem_uc main_arg3 (by decide))).trans (WTwo_main_arg3 m c),
    (h c _ (mem_uc main_arg4 (by decide))).trans (WTwo_main_arg4 m c),
    (h c _ (mem_uc main_arg5 (by decide))).trans (WTwo_main_arg5 m c)⟩) (run_all m ρ)

end Cert.KernelIdeal.Hand

end
-- ==== Proof.LibMatmulEntry.lean ====
/-
  A plain matrix product read at an entry. At exact arithmetic a product of an m×K matrix by a K×n matrix into a zero
  accumulator, whose dimension numbers contract the left factor's columns against the right factor's rows, has at
  entry (p, q) the sum over k of left (p, k) · right (k, q). Stated for any dimension record of these three shapes,
  given where it sends an output index and a contraction index.
-/
import Idealize.ShloMosaic.Lib.ValueIdx
import Idealize.ShloMosaic.PureOps.Ideal.Laws

noncomputable section

namespace Cert.Lib.MatmulEntry

open Idealize.ShloMosaic Idealize.ShloMosaic.TcCoe Idealize.SL.Sem Idealize.ShloMosaic.ValueIdx

/-- A matrix product of an m×K by a K×n matrix into a zero accumulator, read at entry (p, q), is the sum over the
    one contracted axis of the products of row p of the left factor with column q of the right factor. The four
    hypotheses say where the product's dimension numbers send an output index and a contraction index: to (row, k)
    on the left and (k, column) on the right. -/
theorem matmul_zero_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.MatmulEntry

end
-- ==== Proof.KernelSums.lean ====
/-
  The kernel bodies' arithmetic against the reference's stages, entry by entry, at exact arithmetic: each of the
  kernel's four matrix products into a zero accumulator is a plain sum over the contracted axis; the support x · W1 is
  the reference's first product; a stripe's hidden entry relu(a · S1 + b1) · W2 and a stripe's output entry a · S2 + b2
  are the reference's entries at the stripe's row, the same sums in the same order.
-/
import proofs.«171362_g16277926052538_cont_week2b_966_18_alg».proof.Proof.Gen.KernelIdeal.Skeleton
import proofs.«171362_g16277926052538_cont_week2b_966_18_alg».proof.Proof.Gen.ReferenceIdeal.Read
import proofs.«171362_g16277926052538_cont_week2b_966_18_alg».proof.Proof.LibMatmulEntry
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sums

open Idealize.ShloMosaic Idealize.ShloMosaic.TcCoe Idealize.SL.Sem Idealize.ShloMosaic.ValueIdx
open Cert.Lib.MatmulEntry

/-- The 10000×128 by 128×64 product of the kernel into a zero accumulator, entry by entry. -/
theorem mm_x_w1 (lhs : FVec Ideal S10000x128 .f32) (rhs : FVec Ideal S128x64 .f32) (p : Fin 10000) (q : Fin 64) :
    matmul dot_S10000x128_S128x64_S10000x64_1_0_0_1_n_n none lhs rhs (constant (F := Ideal) S10000x64 .f32 0x00000000#32) (ix2 p q)
      = ∑ k : Fin 128, lhs (ix2 p k) * rhs (ix2 k q) :=
  matmul_zero_ix2 dot_S10000x128_S128x64_S10000x64_1_0_0_1_n_n rfl rfl
    (fun i c => by
      unfold DotDims.lhsIdx
      rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
      rfl)
    (fun i c => dot_S10000x128_S128x64_S10000x64_1_0_0_1_n_n.lhsIdx_val_of_single rfl i c)
    (fun i c => dot_S10000x128_S128x64_S10000x64_1_0_0_1_n_n.rhsIdx_val_of_single rfl i c)
    (fun i c => by
      unfold DotDims.rhsIdx
      rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
      rfl)
    lhs rhs p q

/-- The 400×10000 by 10000×64 product of the kernel into a zero accumulator, entry by entry. -/
theorem mm_a_s1 (lhs : FVec Ideal S400x10000 .f32) (rhs : FVec Ideal S10000x64 .f32) (p : Fin 400) (q : Fin 64) :
    matmul dot_S400x10000_S10000x64_S400x64_1_0_0_1_n_n none lhs rhs (constant (F := Ideal) S400x64 .f32 0x00000000#32) (ix2 p q)
      = ∑ k : Fin 10000, lhs (ix2 p k) * rhs (ix2 k q) :=
  matmul_zero_ix2 dot_S400x10000_S10000x64_S400x64_1_0_0_1_n_n rfl rfl
    (fun i c => by
      unfold DotDims.lhsIdx
      rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
      rfl)
    (fun i c => dot_S400x10000_S10000x64_S400x64_1_0_0_1_n_n.lhsIdx_val_of_single rfl i c)
    (fun i c => dot_S400x10000_S10000x64_S400x64_1_0_0_1_n_n.rhsIdx_val_of_single rfl i c)
    (fun i c => by
      unfold DotDims.rhsIdx
      rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
      rfl)
    lhs rhs p q

/-- The 400×64 by 64×32 product of the kernel into a zero accumulator, entry by entry. -/
theorem mm_h_w2 (lhs : FVec Ideal S400x64 .f32) (rhs : FVec Ideal S64x32 .f32) (p : Fin 400) (q : Fin 32) :
    matmul dot_S400x64_S64x32_S400x32_1_0_0_1_n_n none lhs rhs (constant (F := Ideal) S400x32 .f32 0x00000000#32) (ix2 p q)
      = ∑ k : Fin 64, lhs (ix2 p k) * rhs (ix2 k q) :=
  matmul_zero_ix2 dot_S400x64_S64x32_S400x32_1_0_0_1_n_n rfl rfl
    (fun i c => by
      unfold DotDims.lhsIdx
      rw [dif_neg (show ¬(0 : Fin S400x64.rank) ∈ dot_S400x64_S64x32_S400x32_1_0_0_1_n_n.lhsBatch by decide), dif_pos (show (0 : Fin S400x64.rank) ∈ dot_S400x64_S64x32_S400x32_1_0_0_1_n_n.lhsNonContracting by decide)]
      rfl)
    (fun i c => dot_S400x64_S64x32_S400x32_1_0_0_1_n_n.lhsIdx_val_of_single rfl i c)
    (fun i c => dot_S400x64_S64x32_S400x32_1_0_0_1_n_n.rhsIdx_val_of_single rfl i c)
    (fun i c => by
      unfold DotDims.rhsIdx
      rw [dif_neg (show ¬(1 : Fin S64x32.rank) ∈ dot_S400x64_S64x32_S400x32_1_0_0_1_n_n.rhsBatch by decide), dif_pos (show (1 : Fin S64x32.rank) ∈ dot_S400x64_S64x32_S400x32_1_0_0_1_n_n.rhsNonContracting by decide)]
      rfl)
    lhs rhs p q

/-- The 400×10000 by 10000×32 product of the kernel into a zero accumulator, entry by entry. -/
theorem mm_a_s2 (lhs : FVec Ideal S400x10000 .f32) (rhs : FVec Ideal S10000x32 .f32) (p : Fin 400) (q : Fin 32) :
    matmul dot_S400x10000_S10000x32_S400x32_1_0_0_1_n_n none lhs rhs (constant (F := Ideal) S400x32 .f32 0x00000000#32) (ix2 p q)
      = ∑ k : Fin 10000, lhs (ix2 p k) * rhs (ix2 k q) :=
  matmul_zero_ix2 dot_S400x10000_S10000x32_S400x32_1_0_0_1_n_n rfl rfl
    (fun i c => by
      unfold DotDims.lhsIdx
      rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
      rfl)
    (fun i c => dot_S400x10000_S10000x32_S400x32_1_0_0_1_n_n.lhsIdx_val_of_single rfl i c)
    (fun i c => dot_S400x10000_S10000x32_S400x32_1_0_0_1_n_n.rhsIdx_val_of_single rfl i c)
    (fun i c => by
      unfold DotDims.rhsIdx
      rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
      rfl)
    lhs rhs p q

/-- The reference's first-layer support x @ W1 at entry (p, q): the sum over the 128 input features. -/
theorem ref_v0_at (x : Vec Ideal S10000x128 .f32) (w1 : Vec Ideal S128x64 .f32) (p : Fin 10000) (q : Fin 64) :
    Cert.ReferenceIdeal.Read.val_main_v0 (F := Ideal) x w1 (ix2 p q) = ∑ k : Fin 128, x (ix2 p k) * w1 (ix2 k q) := by
  refine (Cert.ReferenceIdeal.Read.val_main_v0_apply x w1 (ix2 p q)).trans (Finset.sum_congr rfl fun k _ => ?_)
  have el : Cert.ReferenceIdeal.Read.lidx_main_v0 (ix2 p q) k = ix2 p k := funext fun a => Fin.ext (by match a with | ⟨0, _⟩ => rfl | ⟨1, _⟩ => rfl)
  have er : Cert.ReferenceIdeal.Read.ridx_main_v0 (ix2 p q) k = ix2 k q := funext fun a => Fin.ext (by match a with | ⟨0, _⟩ => rfl | ⟨1, _⟩ => rfl)
  rw [el, er]

/-- The reference's aggregation adj @ (x @ W1) at entry (p, q): the sum over the 10000 nodes. -/
theorem ref_v1_at (x : Vec Ideal S10000x128 .f32) (adj : Vec Ideal S10000x10000 .f32) (w1 : Vec Ideal S128x64 .f32) (p : Fin 10000) (q : Fin 64) :
    Cert.ReferenceIdeal.Read.val_main_v1 (F := Ideal) x adj w1 (ix2 p q) = ∑ k : Fin 10000, adj (ix2 p k) * Cert.ReferenceIdeal.Read.val_main_v0 (F := Ideal) x w1 (ix2 k q) := by
  refine (Cert.ReferenceIdeal.Read.val_main_v1_apply x adj w1 (ix2 p q)).trans (Finset.sum_congr rfl fun k _ => ?_)
  have el : Cert.ReferenceIdeal.Read.lidx_main_v1 (ix2 p q) k = ix2 p k := funext fun a => Fin.ext (by match a with | ⟨0, _⟩ => rfl | ⟨1, _⟩ => rfl)
  have er : Cert.ReferenceIdeal.Read.ridx_main_v1 (ix2 p q) k = ix2 k q := funext fun a => Fin.ext (by match a with | ⟨0, _⟩ => rfl | ⟨1, _⟩ => rfl)
  rw [el, er]

/-- The reference's first bias, laid along every row, read at entry (r, h) is its entry h. -/
theorem ref_v3_at (b1 : Vec Ideal S64 .f32) (r : Fin 10000) (h : Fin 64) :
    Cert.ReferenceIdeal.Read.val_main_v3 (F := Ideal) b1 (ix2 r h) = b1 (ix1 h) := by
  refine (Cert.ReferenceIdeal.Read.val_main_v3_apply b1 (ix2 r h)).trans ((Cert.ReferenceIdeal.Read.val_main_v2_apply b1 _).trans (congrArg b1 ?_))
  exact funext fun a => Fin.ext (by match a with | ⟨0, _⟩ => rfl)

/-- The reference's hidden activation at entry (r, h): relu of the aggregated support plus the bias. The zero of the
    relu is left as the constant's word. -/
theorem ref_v5_at (x : Vec Ideal S10000x128 .f32) (adj : Vec Ideal S10000x10000 .f32) (w1 : Vec Ideal S128x64 .f32) (b1 : Vec Ideal S64 .f32) (r : Fin 10000) (h : Fin 64) :
    Cert.ReferenceIdeal.Read.val_main_v5 (F := Ideal) x adj w1 b1 (ix2 r h)
      = max ((∑ k : Fin 10000, adj (ix2 r k) * Cert.ReferenceIdeal.Read.val_main_v0 (F := Ideal) x w1 (ix2 k h)) + b1 (ix1 h))
          (FloatOps.ofBits (F := Ideal) .f32 0x00000000#32) := by
  refine (Cert.ReferenceIdeal.Read.val_main_v5_apply x adj w1 b1 (ix2 r h)).trans ?_
  rw [Cert.ReferenceIdeal.Read.val_main_v4_apply, ref_v1_at, ref_v3_at, Cert.ReferenceIdeal.Read.val_main_call0_v0_apply, Cert.ReferenceIdeal.Read.val_main_call0_cst_apply]
  rfl

/-- The reference's hidden product relu(...) @ W2 at entry (p, q): the sum over the 64 hidden features. -/
theorem ref_v6_at (x : Vec Ideal S10000x128 .f32) (adj : Vec Ideal S10000x10000 .f32) (w1 : Vec Ideal S128x64 .f32) (b1 : Vec Ideal S64 .f32) (w2 : Vec Ideal S64x32 .f32) (p : Fin 10000) (q : Fin 32) :
    Cert.ReferenceIdeal.Read.val_main_v6 (F := Ideal) x adj w1 b1 w2 (ix2 p q) = ∑ k : Fin 64, Cert.ReferenceIdeal.Read.val_main_v5 (F := Ideal) x adj w1 b1 (ix2 p k) * w2 (ix2 k q) := by
  refine (Cert.ReferenceIdeal.Read.val_main_v6_apply x adj w1 b1 w2 (ix2 p q)).trans (Finset.sum_congr rfl fun k _ => ?_)
  have el : Cert.ReferenceIdeal.Read.lidx_main_v6 (ix2 p q) k = ix2 p k := funext fun a => Fin.ext (by match a with | ⟨0, _⟩ => rfl | ⟨1, _⟩ => rfl)
  have er : Cert.ReferenceIdeal.Read.ridx_main_v6 (ix2 p q) k = ix2 k q := funext fun a => Fin.ext (by match a with | ⟨0, _⟩ => rfl | ⟨1, _⟩ => rfl)
  rw [el, er]

/-- The reference's second aggregation adj @ (relu(...) @ W2) at entry (p, q): the sum over the 10000 nodes. -/
theorem ref_v7_at (x : Vec Ideal S10000x128 .f32) (adj : Vec Ideal S10000x10000 .f32) (w1 : Vec Ideal S128x64 .f32) (b1 : Vec Ideal S64 .f32) (w2 : Vec Ideal S64x32 .f32) (p : Fin 10000) (q : Fin 32) :
    Cert.ReferenceIdeal.Read.val_main_v7 (F := Ideal) x adj w1 b1 w2 (ix2 p q) = ∑ k : Fin 10000, adj (ix2 p k) * Cert.ReferenceIdeal.Read.val_main_v6 (F := Ideal) x adj w1 b1 w2 (ix2 k q) := by
  refine (Cert.ReferenceIdeal.Read.val_main_v7_apply x adj w1 b1 w2 (ix2 p q)).trans (Finset.sum_congr rfl fun k _ => ?_)
  have el : Cert.ReferenceIdeal.Read.lidx_main_v7 (ix2 p q) k = ix2 p k := funext fun a => Fin.ext (by match a with | ⟨0, _⟩ => rfl | ⟨1, _⟩ => rfl)
  have er : Cert.ReferenceIdeal.Read.ridx_main_v7 (ix2 p q) k = ix2 k q := funext fun a => Fin.ext (by match a with | ⟨0, _⟩ => rfl | ⟨1, _⟩ => rfl)
  rw [el, er]

/-- The reference's second bias, laid along every row, read at entry (r, q) is its entry q. -/
theorem ref_v9_at (b2 : Vec Ideal S32 .f32) (r : Fin 10000) (q : Fin 32) :
    Cert.ReferenceIdeal.Read.val_main_v9 (F := Ideal) b2 (ix2 r q) = b2 (ix1 q) := by
  refine (Cert.ReferenceIdeal.Read.val_main_v9_apply b2 (ix2 r q)).trans ((Cert.ReferenceIdeal.Read.val_main_v8_apply b2 _).trans (congrArg b2 ?_))
  exact funext fun a => Fin.ext (by match a with | ⟨0, _⟩ => rfl)

/-- One stripe of the hidden activation in the kernel's spelling, at entry (p, h): the stripe's row p against column
    h of the support, plus the bias row's entry h, then the maximum with the broadcast zero (left as its word). -/
theorem hidden_stripe (a : FVec Ideal S400x10000 .f32) (s1 : FVec Ideal S10000x64 .f32) (b : FVec Ideal S1x64 .f32)
    (hc : S1x64.ShapeCasts S1x64) (hbc : S1x64.Broadcasts S400x64) (p : Fin 400) (h : Fin 64) :
    maximumf (addf (matmul dot_S400x10000_S10000x64_S400x64_1_0_0_1_n_n none a s1 (constant (F := Ideal) S400x64 .f32 0x00000000#32))
        (broadcastTo S400x64 (shapeCast S1x64 b hc) hbc))
      (broadcast S400x64 (Scalar.ofBits (F := Ideal) .f32 0x00000000#32)) (ix2 p h)
      = max ((∑ k : Fin 10000, a (ix2 p k) * s1 (ix2 k h)) + b (ix2 (0 : Fin 1) h))
          (FloatOps.ofBits (F := Ideal) .f32 0x00000000#32) := by
  rw [shapeCast_self]
  show max (matmul dot_S400x10000_S10000x64_S400x64_1_0_0_1_n_n none a s1 (constant (F := Ideal) S400x64 .f32 0x00000000#32) (ix2 p h)
      + broadcastTo S400x64 b hbc (ix2 p h)) _ = _
  rw [mm_a_s1, broadcastTo_1b_ab_apply]
  rfl

/-- One stripe of the output layer in the kernel's spelling, at entry (p, q): the stripe's row p against column q of
    the hidden product, plus the bias row's entry q. -/
theorem out_stripe (a : FVec Ideal S400x10000 .f32) (s2 : FVec Ideal S10000x32 .f32) (b : FVec Ideal S1x32 .f32)
    (hc2 : S10000x32.ShapeCasts S10000x32) (hc : S1x32.ShapeCasts S1x32) (hbc : S1x32.Broadcasts S400x32) (p : Fin 400) (q : Fin 32) :
    addf (matmul dot_S400x10000_S10000x32_S400x32_1_0_0_1_n_n none a (shapeCast S10000x32 s2 hc2) (constant (F := Ideal) S400x32 .f32 0x00000000#32))
        (broadcastTo S400x32 (shapeCast S1x32 b hc) hbc) (ix2 p q)
      = (∑ k : Fin 10000, a (ix2 p k) * s2 (ix2 k q)) + b (ix2 (0 : Fin 1) q) := by
  rw [shapeCast_self, shapeCast_self]
  show matmul dot_S400x10000_S10000x32_S400x32_1_0_0_1_n_n none a s2 (constant (F := Ideal) S400x32 .f32 0x00000000#32) (ix2 p q)
      + broadcastTo S400x32 b hbc (ix2 p q) = _
  rw [mm_a_s2, broadcastTo_1b_ab_apply]

/-- The first-layer support x @ W1: the kernel's matrix product into a zero accumulator is the reference's dot_general, entry by entry the same sum over the 128 input features. -/
theorem pay1_eq (x : Vec Ideal S10000x128 .f32) (w1 : Vec Ideal S128x64 .f32) :
    Gen.k0_pay1 (F := Ideal) x w1 = Cert.ReferenceIdeal.Read.val_main_v0 (F := Ideal) x w1 := by
  funext j
  obtain ⟨p, q, rfl⟩ : ∃ (p : Fin 10000) (q : Fin 64), j = ix2 p q := ⟨j 0, j 1, eq_ix2 j⟩
  unfold Gen.k0_pay1
  refine Eq.trans ?_ (ref_v0_at x w1 p q).symm
  refine Eq.trans (congrFun (shapeCast_self _ _) (ix2 p q)) ?_
  exact mm_x_w1 x w1 p q

/-- One stripe of the hidden layer: if the stripe's row p is row r of the adjacency matrix and the bias row is b1, the stripe's entry (p, q) of relu(a @ S1 + b) @ W2 is the reference's entry (r, q). -/
theorem pay2_eq_ref (x : Vec Ideal S10000x128 .f32) (adj : Vec Ideal S10000x10000 .f32) (w1 : Vec Ideal S128x64 .f32) (b1 : Vec Ideal S64 .f32) (w2 : Vec Ideal S64x32 .f32)
    (a : Vec Ideal S400x10000 .f32) (b : Vec Ideal S1x64 .f32) (r : Fin 10000) (p : Fin 400) (q : Fin 32)
    (ha : ∀ k : Fin 10000, a (ix2 p k) = adj (ix2 r k)) (hb : ∀ h : Fin 64, b (ix2 (0 : Fin 1) h) = b1 (ix1 h)) :
    Gen.k0_pay2 (F := Ideal) a (Cert.ReferenceIdeal.Read.val_main_v0 (F := Ideal) x w1) b w2 (ix2 p q)
      = Cert.ReferenceIdeal.Read.val_main_v6 (F := Ideal) x adj w1 b1 w2 (ix2 r q) := by
  unfold Gen.k0_pay2
  refine Eq.trans (mm_h_w2 _ w2 p q) ?_
  refine Eq.trans ?_ (ref_v6_at x adj w1 b1 w2 r q).symm
  refine Finset.sum_congr rfl fun h _ => congrArg (· * w2 (ix2 h q)) ?_
  refine Eq.trans (hidden_stripe a (Cert.ReferenceIdeal.Read.val_main_v0 (F := Ideal) x w1) b _ _ p h) ?_
  refine Eq.trans ?_ (ref_v5_at x adj w1 b1 r h).symm
  have hsum : (∑ k : Fin 10000, a (ix2 p k) * Cert.ReferenceIdeal.Read.val_main_v0 (F := Ideal) x w1 (ix2 k h))
      = ∑ k : Fin 10000, adj (ix2 r k) * Cert.ReferenceIdeal.Read.val_main_v0 (F := Ideal) x w1 (ix2 k h) :=
    Finset.sum_congr rfl fun k _ => by rw [ha k]
  rw [hsum, hb h]

/-- One stripe of the output layer: if the stripe's row p is row r of the adjacency matrix, s2 is the reference's hidden product and the bias row is b2, the stripe's entry (p, q) of a @ S2 + b is the reference's result entry (r, q). -/
theorem pay3_eq_ref (x : Vec Ideal S10000x128 .f32) (adj : Vec Ideal S10000x10000 .f32) (w1 : Vec Ideal S128x64 .f32) (b1 : Vec Ideal S64 .f32) (w2 : Vec Ideal S64x32 .f32) (b2 : Vec Ideal S32 .f32)
    (a : Vec Ideal S400x10000 .f32) (b : Vec Ideal S1x32 .f32) (r : Fin 10000) (p : Fin 400) (q : Fin 32)
    (ha : ∀ k : Fin 10000, a (ix2 p k) = adj (ix2 r k)) (hb : ∀ j : Fin 32, b (ix2 (0 : Fin 1) j) = b2 (ix1 j)) :
    Gen.k1_pay1 (F := Ideal) a (Cert.ReferenceIdeal.Read.val_main_v6 (F := Ideal) x adj w1 b1 w2) b (ix2 p q)
      = Cert.ReferenceIdeal.Read.val_main_v10 (F := Ideal) x adj w1 b1 w2 b2 (ix2 r q) := by
  unfold Gen.k1_pay1
  refine Eq.trans (out_stripe a (Cert.ReferenceIdeal.Read.val_main_v6 (F := Ideal) x adj w1 b1 w2) b _ _ _ p q) ?_
  refine Eq.trans ?_ (Cert.ReferenceIdeal.Read.val_main_v10_apply x adj w1 b1 w2 b2 (ix2 r q)).symm
  rw [ref_v7_at, ref_v9_at]
  have hsum : (∑ k : Fin 10000, a (ix2 p k) * Cert.ReferenceIdeal.Read.val_main_v6 (F := Ideal) x adj w1 b1 w2 (ix2 k q))
      = ∑ k : Fin 10000, adj (ix2 r k) * Cert.ReferenceIdeal.Read.val_main_v6 (F := Ideal) x adj w1 b1 w2 (ix2 k q) :=
    Finset.sum_congr rfl fun k _ => by rw [ha k]
  rw [hsum, hb q]
  rfl

end Cert.KernelIdeal.Sums

end
-- ==== Proof.Result.lean ====
/-
  What the two regions leave in their output arrays, at exact arithmetic. The first region's array ends holding the
  hidden product relu(adj · (x · W1) + b1) · W2: point t writes back rows 400 t … 400 t + 399, each entry the same
  sums the reference forms, and the 25 stripes tile the array. The second region's array ends holding adj · hidden + b2:
  point t writes back rows 400 (24 − t) … 400 (24 − t) + 399 (the stripes are visited in reverse order), and again
  the stripes tile the array. Both are named by the reference's own stage functions, so the result is the reference's
  last stage of the six arguments.
-/
import proofs.«171362_g16277926052538_cont_week2b_966_18_alg».proof.Proof.FrameI.Run
import proofs.«171362_g16277926052538_cont_week2b_966_18_alg».proof.Proof.KernelSums
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Hand

/-! ## The index maps, decided over the two grids -/

/-- First region: the adjacency stripe and the output stripe are at block row t; every other window sits at block (0, 0). -/
theorem idxOne : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Second region: the adjacency stripe and the output stripe are at block row 24 − t. -/
theorem idxTwo : ∀ t : Fin cfg1.N,
    win1_0.index t (0 : Fin 2) = 24 - t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 24 - t.val ∧ win1_3.index t (1 : Fin 2) = 0 :=
  (by decide +kernel : ∀ t : Fin grid1.N, _)

/-! ## A block read is its array read at block index × block size + the coordinate inside the block -/

/-- The adjacency stripe of the first region. -/
theorem readOne_0 (V : (c : Dev nD) → (b : Ref sig .tc) → Buf (Elt Ideal) ((c : Thread nD τ).loc b)) (c : Dev nD) (t : Fin cfg0.N) (y : S400x10000.Idx) (k : S10000x10000.Idx)
    (hk0 : (k 0).val = win0_0.index t (0 : Fin 2) * 400 + (y 0).val) (hk1 : (k 1).val = win0_0.index t (1 : Fin 2) * 10000 + (y 1).val) :
    (blkOne V c 0 t : Vec Ideal S400x10000 .f32) y = (V c (Pipeline.arrRef spec0 0) : Vec Ideal S10000x10000 .f32) k := by
  have e : (((cfg0.win 0).blk t).view.emb y : S10000x10000.Idx) = k := funext fun a => Fin.ext (by
    match a with
    | ⟨0, _⟩ => show win0_0.index t (0 : Fin 2) * 400 + 1 * (y 0).val = (k 0).val; omega
    | ⟨1, _⟩ => show win0_0.index t (1 : Fin 2) * 10000 + 1 * (y 1).val = (k 1).val; omega)
  unfold blkOne
  rw [View.read_apply]
  show (V c (Pipeline.arrRef spec0 0) : S10000x10000.Idx → EReal) (((cfg0.win 0).blk t).view.emb y) = (V c (Pipeline.arrRef spec0 0) : S10000x10000.Idx → EReal) k
  rw [e]
/-- The feature matrix. -/
theorem readOne_1 (V : (c : Dev nD) → (b : Ref sig .tc) → Buf (Elt Ideal) ((c : Thread nD τ).loc b)) (c : Dev nD) (t : Fin cfg0.N) (y : S10000x128.Idx) (k : S10000x128.Idx)
    (hk0 : (k 0).val = win0_1.index t (0 : Fin 2) * 10000 + (y 0).val) (hk1 : (k 1).val = win0_1.index t (1 : Fin 2) * 128 + (y 1).val) :
    (blkOne V c 1 t : Vec Ideal S10000x128 .f32) y = (V c (Pipeline.arrRef spec0 1) : Vec Ideal S10000x128 .f32) k := by
  have e : (((cfg0.win 1).blk t).view.emb y : S10000x128.Idx) = k := funext fun a => Fin.ext (by
    match a with
    | ⟨0, _⟩ => show win0_1.index t (0 : Fin 2) * 10000 + 1 * (y 0).val = (k 0).val; omega
    | ⟨1, _⟩ => show win0_1.index t (1 : Fin 2) * 128 + 1 * (y 1).val = (k 1).val; omega)
  unfold blkOne
  rw [View.read_apply]
  show (V c (Pipeline.arrRef spec0 1) : S10000x128.Idx → EReal) (((cfg0.win 1).blk t).view.emb y) = (V c (Pipeline.arrRef spec0 1) : S10000x128.Idx → EReal) k
  rw [e]
/-- The first weight matrix. -/
theorem readOne_2 (V : (c : Dev nD) → (b : Ref sig .tc) → Buf (Elt Ideal) ((c : Thread nD τ).loc b)) (c : Dev nD) (t : Fin cfg0.N) (y : S128x64.Idx) (k : S128x64.Idx)
    (hk0 : (k 0).val = win0_2.index t (0 : Fin 2) * 128 + (y 0).val) (hk1 : (k 1).val = win0_2.index t (1 : Fin 2) * 64 + (y 1).val) :
    (blkOne V c 2 t : Vec Ideal S128x64 .f32) y = (V c (Pipeline.arrRef spec0 2) : Vec Ideal S128x64 .f32) k := by
  have e : (((cfg0.win 2).blk t).view.emb y : S128x64.Idx) = k := funext fun a => Fin.ext (by
    match a with
    | ⟨0, _⟩ => show win0_2.index t (0 : Fin 2) * 128 + 1 * (y 0).val = (k 0).val; omega
    | ⟨1, _⟩ => show win0_2.index t (1 : Fin 2) * 64 + 1 * (y 1).val = (k 1).val; omega)
  unfold blkOne
  rw [View.read_apply]
  show (V c (Pipeline.arrRef spec0 2) : S128x64.Idx → EReal) (((cfg0.win 2).blk t).view.emb y) = (V c (Pipeline.arrRef spec0 2) : S128x64.Idx → EReal) k
  rw [e]
/-- The first bias row. -/
theorem readOne_3 (V : (c : Dev nD) → (b : Ref sig .tc) → Buf (Elt Ideal) ((c : Thread nD τ).loc b)) (c : Dev nD) (t : Fin cfg0.N) (y : S1x64.Idx) (k : S1x64.Idx)
    (hk0 : (k 0).val = win0_3.index t (0 : Fin 2) * 1 + (y 0).val) (hk1 : (k 1).val = win0_3.index t (1 : Fin 2) * 64 + (y 1).val) :
    (blkOne V c 3 t : Vec Ideal S1x64 .f32) y = (V c (Pipeline.arrRef spec0 3) : Vec Ideal S1x64 .f32) k := by
  have e : (((cfg0.win 3).blk t).view.emb y : S1x64.Idx) = k := funext fun a => Fin.ext (by
    match a with
    | ⟨0, _⟩ => show win0_3.index t (0 : Fin 2) * 1 + 1 * (y 0).val = (k 0).val; omega
    | ⟨1, _⟩ => show win0_3.index t (1 : Fin 2) * 64 + 1 * (y 1).val = (k 1).val; omega)
  unfold blkOne
  rw [View.read_apply]
  show (V c (Pipeline.arrRef spec0 3) : S1x64.Idx → EReal) (((cfg0.win 3).blk t).view.emb y) = (V c (Pipeline.arrRef spec0 3) : S1x64.Idx → EReal) k
  rw [e]
/-- The second weight matrix. -/
theorem readOne_4 (V : (c : Dev nD) → (b : Ref sig .tc) → Buf (Elt Ideal) ((c : Thread nD τ).loc b)) (c : Dev nD) (t : Fin cfg0.N) (y : S64x32.Idx) (k : S64x32.Idx)
    (hk0 : (k 0).val = win0_4.index t (0 : Fin 2) * 64 + (y 0).val) (hk1 : (k 1).val = win0_4.index t (1 : Fin 2) * 32 + (y 1).val) :
    (blkOne V c 4 t : Vec Ideal S64x32 .f32) y = (V c (Pipeline.arrRef spec0 4) : Vec Ideal S64x32 .f32) k := by
  have e : (((cfg0.win 4).blk t).view.emb y : S64x32.Idx) = k := funext fun a => Fin.ext (by
    match a with
    | ⟨0, _⟩ => show win0_4.index t (0 : Fin 2) * 64 + 1 * (y 0).val = (k 0).val; omega
    | ⟨1, _⟩ => show win0_4.index t (1 : Fin 2) * 32 + 1 * (y 1).val = (k 1).val; omega)
  unfold blkOne
  rw [View.read_apply]
  show (V c (Pipeline.arrRef spec0 4) : S64x32.Idx → EReal) (((cfg0.win 4).blk t).view.emb y) = (V c (Pipeline.arrRef spec0 4) : S64x32.Idx → EReal) k
  rw [e]
/-- The adjacency stripe of the second region. -/
theorem readTwo_0 (V : (c : Dev nD) → (b : Ref sig .tc) → Buf (Elt Ideal) ((c : Thread nD τ).loc b)) (c : Dev nD) (t : Fin cfg1.N) (y : S400x10000.Idx) (k : S10000x10000.Idx)
    (hk0 : (k 0).val = win1_0.index t (0 : Fin 2) * 400 + (y 0).val) (hk1 : (k 1).val = win1_0.index t (1 : Fin 2) * 10000 + (y 1).val) :
    (blkTwo V c 0 t : Vec Ideal S400x10000 .f32) y = (V c (Pipeline.arrRef spec1 0) : Vec Ideal S10000x10000 .f32) k := by
  have e : (((cfg1.win 0).blk t).view.emb y : S10000x10000.Idx) = k := funext fun a => Fin.ext (by
    match a with
    | ⟨0, _⟩ => show win1_0.index t (0 : Fin 2) * 400 + 1 * (y 0).val = (k 0).val; omega
    | ⟨1, _⟩ => show win1_0.index t (1 : Fin 2) * 10000 + 1 * (y 1).val = (k 1).val; omega)
  unfold blkTwo
  rw [View.read_apply]
  show (V c (Pipeline.arrRef spec1 0) : S10000x10000.Idx → EReal) (((cfg1.win 0).blk t).view.emb y) = (V c (Pipeline.arrRef spec1 0) : S10000x10000.Idx → EReal) k
  rw [e]
/-- The hidden product. -/
theorem readTwo_1 (V : (c : Dev nD) → (b : Ref sig .tc) → Buf (Elt Ideal) ((c : Thread nD τ).loc b)) (c : Dev nD) (t : Fin cfg1.N) (y : S10000x32.Idx) (k : S10000x32.Idx)
    (hk0 : (k 0).val = win1_1.index t (0 : Fin 2) * 10000 + (y 0).val) (hk1 : (k 1).val = win1_1.index t (1 : Fin 2) * 32 + (y 1).val) :
    (blkTwo V c 1 t : Vec Ideal S10000x32 .f32) y = (V c (Pipeline.arrRef spec1 1) : Vec Ideal S10000x32 .f32) k := by
  have e : (((cfg1.win 1).blk t).view.emb y : S10000x32.Idx) = k := funext fun a => Fin.ext (by
    match a with
    | ⟨0, _⟩ => show win1_1.index t (0 : Fin 2) * 10000 + 1 * (y 0).val = (k 0).val; omega
    | ⟨1, _⟩ => show win1_1.index t (1 : Fin 2) * 32 + 1 * (y 1).val = (k 1).val; omega)
  unfold blkTwo
  rw [View.read_apply]
  show (V c (Pipeline.arrRef spec1 1) : S10000x32.Idx → EReal) (((cfg1.win 1).blk t).view.emb y) = (V c (Pipeline.arrRef spec1 1) : S10000x32.Idx → EReal) k
  rw [e]
/-- The second bias row. -/
theorem readTwo_2 (V : (c : Dev nD) → (b : Ref sig .tc) → Buf (Elt Ideal) ((c : Thread nD τ).loc b)) (c : Dev nD) (t : Fin cfg1.N) (y : S1x32.Idx) (k : S1x32.Idx)
    (hk0 : (k 0).val = win1_2.index t (0 : Fin 2) * 1 + (y 0).val) (hk1 : (k 1).val = win1_2.index t (1 : Fin 2) * 32 + (y 1).val) :
    (blkTwo V c 2 t : Vec Ideal S1x32 .f32) y = (V c (Pipeline.arrRef spec1 2) : Vec Ideal S1x32 .f32) k := by
  have e : (((cfg1.win 2).blk t).view.emb y : S1x32.Idx) = k := funext fun a => Fin.ext (by
    match a with
    | ⟨0, _⟩ => show win1_2.index t (0 : Fin 2) * 1 + 1 * (y 0).val = (k 0).val; omega
    | ⟨1, _⟩ => show win1_2.index t (1 : Fin 2) * 32 + 1 * (y 1).val = (k 1).val; omega)
  unfold blkTwo
  rw [View.read_apply]
  show (V c (Pipeline.arrRef spec1 2) : S1x32.Idx → EReal) (((cfg1.win 2).blk t).view.emb y) = (V c (Pipeline.arrRef spec1 2) : S1x32.Idx → EReal) k
  rw [e]

/-- A resident window's block is its whole array. -/
theorem wholeOne_1 (V : (c : Dev nD) → (b : Ref sig .tc) → Buf (Elt Ideal) ((c : Thread nD τ).loc b)) (c : Dev nD) (t : Fin cfg0.N) :
    (blkOne V c 1 t : Vec Ideal S10000x128 .f32) = (V c (Pipeline.arrRef spec0 1) : Vec Ideal S10000x128 .f32) :=
  funext fun y => readOne_1 V c t y y (by rw [(idxOne t).2.2.1]; omega) (by rw [(idxOne t).2.2.2.1]; omega)
/-- The same for the first weight matrix. -/
theorem wholeOne_2 (V : (c : Dev nD) → (b : Ref sig .tc) → Buf (Elt Ideal) ((c : Thread nD τ).loc b)) (c : Dev nD) (t : Fin cfg0.N) :
    (blkOne V c 2 t : Vec Ideal S128x64 .f32) = (V c (Pipeline.arrRef spec0 2) : Vec Ideal S128x64 .f32) :=
  funext fun y => readOne_2 V c t y y (by rw [(idxOne t).2.2.2.2.1]; omega) (by rw [(idxOne t).2.2.2.2.2.1]; omega)
/-- The same for the first bias row. -/
theorem wholeOne_3 (V : (c : Dev nD) → (b : Ref sig .tc) → Buf (Elt Ideal) ((c : Thread nD τ).loc b)) (c : Dev nD) (t : Fin cfg0.N) :
    (blkOne V c 3 t : Vec Ideal S1x64 .f32) = (V c (Pipeline.arrRef spec0 3) : Vec Ideal S1x64 .f32) :=
  funext fun y => readOne_3 V c t y y (by rw [(idxOne t).2.2.2.2.2.2.1]; omega) (by rw [(idxOne t).2.2.2.2.2.2.2.1]; omega)
/-- The same for the second weight matrix. -/
theorem wholeOne_4 (V : (c : Dev nD) → (b : Ref sig .tc) → Buf (Elt Ideal) ((c : Thread nD τ).loc b)) (c : Dev nD) (t : Fin cfg0.N) :
    (blkOne V c 4 t : Vec Ideal S64x32 .f32) = (V c (Pipeline.arrRef spec0 4) : Vec Ideal S64x32 .f32) :=
  funext fun y => readOne_4 V c t y y (by rw [(idxOne t).2.2.2.2.2.2.2.2.1]; omega) (by rw [(idxOne t).2.2.2.2.2.2.2.2.2.1]; omega)
/-- The same for the hidden product in the second region. -/
theorem wholeTwo_1 (V : (c : Dev nD) → (b : Ref sig .tc) → Buf (Elt Ideal) ((c : Thread nD τ).loc b)) (c : Dev nD) (t : Fin cfg1.N) :
    (blkTwo V c 1 t : Vec Ideal S10000x32 .f32) = (V c (Pipeline.arrRef spec1 1) : Vec Ideal S10000x32 .f32) :=
  funext fun y => readTwo_1 V c t y y (by rw [(idxTwo t).2.2.1]; omega) (by rw [(idxTwo t).2.2.2.1]; omega)
/-- The same for the second bias row. -/
theorem wholeTwo_2 (V : (c : Dev nD) → (b : Ref sig .tc) → Buf (Elt Ideal) ((c : Thread nD τ).loc b)) (c : Dev nD) (t : Fin cfg1.N) :
    (blkTwo V c 2 t : Vec Ideal S1x32 .f32) = (V c (Pipeline.arrRef spec1 2) : Vec Ideal S1x32 .f32) :=
  funext fun y => readTwo_2 V c t y y (by rw [(idxTwo t).2.2.2.2.1]; omega) (by rw [(idxTwo t).2.2.2.2.2.1]; omega)

/-! ## The arguments, and what the regions find in their arrays -/

variable (m : (ℓ : Loc nD τ sig) → Buf (Elt Ideal) ℓ) (c : Dev nD)

abbrev aX : Vec Ideal S10000x128 .f32 := m ((c : Thread nD τ).loc main_arg0)
abbrev aAdj : Vec Ideal S10000x10000 .f32 := m ((c : Thread nD τ).loc main_arg1)
abbrev aW1 : Vec Ideal S128x64 .f32 := m ((c : Thread nD τ).loc main_arg2)
abbrev aB1 : Vec Ideal S64 .f32 := m ((c : Thread nD τ).loc main_arg3)
abbrev aW2 : Vec Ideal S64x32 .f32 := m ((c : Thread nD τ).loc main_arg4)
abbrev aB2 : Vec Ideal S32 .f32 := m ((c : Thread nD τ).loc main_arg5)

/-- The hidden product relu(adj · (x · W1) + b1) · W2, as the reference's stage of the arguments. -/
abbrev hidden : Vec Ideal S10000x32 .f32 :=
  Cert.ReferenceIdeal.Read.val_main_v6 (F := Ideal) (aX m c) (aAdj m c) (aW1 m c) (aB1 m c) (aW2 m c)
/-- The result adj · hidden + b2, as the reference's last stage of the arguments. -/
abbrev result : Vec Ideal S10000x32 .f32 :=
  Cert.ReferenceIdeal.Read.val_main_v10 (F := Ideal) (aX m c) (aAdj m c) (aW1 m c) (aB1 m c) (aW2 m c) (aB2 m c)

/-- The first region finds each argument as launched: the reshapes write only their own results. -/
theorem host_arg1 : (VHost m c (Pipeline.arrRef spec0 0) : Vec Ideal S10000x10000 .f32) = aAdj m c := V1_of m c main_arg1 (by decide)
theorem host_arg0 : (VHost m c (Pipeline.arrRef spec0 1) : Vec Ideal S10000x128 .f32) = aX m c := V1_of m c main_arg0 (by decide)
theorem host_arg2 : (VHost m c (Pipeline.arrRef spec0 2) : Vec Ideal S128x64 .f32) = aW1 m c := V1_of m c main_arg2 (by decide)
theorem host_arg4 : (VHost m c (Pipeline.arrRef spec0 4) : Vec Ideal S64x32 .f32) = aW2 m c := V1_of m c main_arg4 (by decide)
/-- The two bias rows are the bias vectors re-laid as one row. -/
theorem host_v0 : (VHost m c main_v0 : S1x64.Idx → EReal) = shapeCast S1x64 (aB1 m c) Facts₀.shapeCasts_S64_S1x64 := by
  dsimp only [VHost, V1, hostOps0]; after_results; rfl
theorem host_v1 : (VHost m c main_v1 : S1x32.Idx → EReal) = shapeCast S1x32 (aB2 m c) Facts₀.shapeCasts_S32_S1x32 := by
  dsimp only [VHost, V1, hostOps0]; after_results; rfl

/-- A bias row read at column h is the bias vector's entry h. -/
theorem bias1_at (h : Fin 64) : (VHost m c (Pipeline.arrRef spec0 3) : S1x64.Idx → EReal) (ix2 (0 : Fin 1) h) = aB1 m c (ix1 h) := by
  show (VHost m c main_v0 : S1x64.Idx → EReal) (ix2 (0 : Fin 1) h) = _
  rw [host_v0]
  refine (shapeCast_addUnit_apply ![64] (aB1 m c) _ (ix2 (0 : Fin 1) h)).trans ?_
  refine congrArg (aB1 m c) ?_
  funext a; match a with | ⟨0, _⟩ => rfl
theorem bias2_at (j : Fin 32) : (VHost m c main_v1 : S1x32.Idx → EReal) (ix2 (0 : Fin 1) j) = aB2 m c (ix1 j) := by
  rw [host_v1]
  refine (shapeCast_addUnit_apply ![32] (aB2 m c) _ (ix2 (0 : Fin 1) j)).trans ?_
  refine congrArg (aB2 m c) ?_
  funext a; match a with | ⟨0, _⟩ => rfl

/-! ## The first region: the support, a stripe's entries, the write-backs, the array -/

/-- The support the scratch keeps is the reference's first product x · W1. -/
theorem supp_eq : supp (VHost m) c = Cert.ReferenceIdeal.Read.val_main_v0 (F := Ideal) (aX m c) (aW1 m c) := by
  unfold supp
  rw [wholeOne_1 (VHost m) c first, wholeOne_2 (VHost m) c first, host_arg0, host_arg2]
  exact Cert.KernelIdeal.Sums.pay1_eq _ _

/-- Entry j of what point t leaves in the output stripe is entry (400 t + row, column) of the hidden product. -/
theorem stripe_hidden (t : Fin cfg0.N) (j : S400x32.Idx) (i : S10000x32.Idx)
    (hi0 : (i 0).val = 400 * t.val + (j 0).val) (hi1 : (i 1).val = (j 1).val) :
    k0_pay2 (F := Ideal) (blkOne (VHost m) c 0 t) (supp (VHost m) c) (blkOne (VHost m) c 3 t) (blkOne (VHost m) c 4 t) j = hidden m c i := by
  obtain ⟨p, q, rfl⟩ : ∃ (p : Fin 400) (q : Fin 32), j = ix2 p q := ⟨j 0, j 1, eq_ix2 j⟩
  obtain ⟨r, q', rfl⟩ : ∃ (r : Fin 10000) (q' : Fin 32), i = ix2 r q' := ⟨i 0, i 1, eq_ix2 i⟩
  have hq : q' = q := Fin.ext hi1
  have hr : r.val = 400 * t.val + p.val := hi0
  rw [hq, supp_eq, wholeOne_4 (VHost m) c t, host_arg4]
  refine Cert.KernelIdeal.Sums.pay2_eq_ref (aX m c) (aAdj m c) (aW1 m c) (aB1 m c) (aW2 m c) _ _ r p q (fun k => ?_) (fun h => ?_)
  · refine (readOne_0 (VHost m) c t (ix2 p k) (ix2 r k) ?_ ?_).trans (congrFun (host_arg1 m c) _)
    · show r.val = win0_0.index t (0 : Fin 2) * 400 + p.val; rw [(idxOne t).1, hr]; omega
    · show k.val = win0_0.index t (1 : Fin 2) * 10000 + k.val; rw [(idxOne t).2.1]; omega
  · rw [wholeOne_3 (VHost m) c t]
    exact bias1_at m c h

/-- WHAT POINT t WRITES BACK is block t of the hidden product. -/
theorem flushedOne (t : Fin cfg0.N) :
    (datOne (VHost m) c).flushed 5 t = ((cfg0.win 5).blk t).view.read (Elt Ideal) (hidden m c) := by
  show (cfg0.win 5).cut (grid0.coords t) ((datOne (VHost m) c).after 5 t) = _
  rw [afterOne_5]
  funext j
  refine stripe_hidden m c t j (((cfg0.win 5).blk t).view.emb j) ?_ ?_
  · show win0_5.index t (0 : Fin 2) * 400 + 1 * (j 0).val = 400 * t.val + (j 0).val
    rw [(idxOne t).2.2.2.2.2.2.2.2.2.2.1]; omega
  · show win0_5.index t (1 : Fin 2) * 32 + 1 * (j 1).val = (j 1).val
    rw [(idxOne t).2.2.2.2.2.2.2.2.2.2.2]; omega

/-- An index of the hidden product's array is in point t's block iff each coordinate is in the block's range. -/
theorem mem_blkOne (t : Fin cfg0.N) (i : S10000x32.Idx) :
    i ∈ ((cfg0.win 5).blk t).view.set ↔ ∀ a : Fin 2, win0_5.index t a * S400x32.size a ≤ (i a).val ∧ (i a).val < win0_5.index t a * S400x32.size a + S400x32.size a := by
  show i ∈ ((View.whole main_v2).slice (win0_5.rect t)).set ↔ _
  rw [View.set_slice_whole, Rect.mem_set_unit]
  exact Iff.rfl

/-- Row r lies in the stripe of point r / 400. -/
theorem coverOne (i : S10000x32.Idx) : ∃ t : Fin cfg0.N, (cfg0.win 5).flush t = true ∧ i ∈ ((cfg0.win 5).blk t).view.set := by
  have hi0 : (i 0).val < 10000 := (i 0).isLt
  have hi1 : (i 1).val < 32 := (i 1).isLt
  have hN : cfg0.N = 25 := N_0
  refine ⟨⟨(i 0).val / 400, by rw [hN]; omega⟩, flush0_5 _, ?_⟩
  rw [mem_blkOne]
  intro a
  match a with
  | ⟨0, _⟩ =>
    show win0_5.index _ (0 : Fin 2) * 400 ≤ (i 0).val ∧ (i 0).val < win0_5.index _ (0 : Fin 2) * 400 + 400
    rw [(idxOne _).2.2.2.2.2.2.2.2.2.2.1]; dsimp only; omega
  | ⟨1, _⟩ =>
    show win0_5.index _ (1 : Fin 2) * 32 ≤ (i 1).val ∧ (i 1).val < win0_5.index _ (1 : Fin 2) * 32 + 32
    rw [(idxOne _).2.2.2.2.2.2.2.2.2.2.2]; omega

/-- THE FIRST REGION'S ARRAY ends holding the hidden product. -/
theorem finalOne : (datOne (VHost m) c).arrAt 5 cfg0.N = hidden m c :=
  (datOne (VHost m) c).arrAt_eq_of_cover 5 (hidden m c) (fun t _ => flushedOne m c t) (coverOne)

/-! ## The second region -/

/-- What the second region finds: the adjacency matrix as launched, the hidden product, the second bias row. -/
theorem one_arg1 : (VOne m c (Pipeline.arrRef spec1 0) : Vec Ideal S10000x10000 .f32) = aAdj m c :=
  ((WOne_arr m c 0).trans (((datOne (VHost m) c).arrAt_in 0 rfl _).trans (A_eqOne (VHost m) c 0))).trans (host_arg1 m c)
theorem one_v2 : (VOne m c (Pipeline.arrRef spec1 1) : Vec Ideal S10000x32 .f32) = hidden m c :=
  (WOne_arr m c 5).trans (finalOne m c)
theorem one_v1 : (VOne m c (Pipeline.arrRef spec1 2) : S1x32.Idx → EReal) = (VHost m c main_v1 : S1x32.Idx → EReal) :=
  WOne_of_ne m c main_v1 (by decide)

/-- Entry j of what point t leaves in the output stripe is entry (400 (24 − t) + row, column) of the result. -/
theorem stripe_result (t : Fin cfg1.N) (j : S400x32.Idx) (i : S10000x32.Idx)
    (hi0 : (i 0).val = 400 * (24 - t.val) + (j 0).val) (hi1 : (i 1).val = (j 1).val) :
    k1_pay1 (F := Ideal) (blkTwo (VOne m) c 0 t) (blkTwo (VOne m) c 1 t) (blkTwo (VOne m) c 2 t) j = result m c i := by
  obtain ⟨p, q, rfl⟩ : ∃ (p : Fin 400) (q : Fin 32), j = ix2 p q := ⟨j 0, j 1, eq_ix2 j⟩
  obtain ⟨r, q', rfl⟩ : ∃ (r : Fin 10000) (q' : Fin 32), i = ix2 r q' := ⟨i 0, i 1, eq_ix2 i⟩
  have hq : q' = q := Fin.ext hi1
  have hr : r.val = 400 * (24 - t.val) + p.val := hi0
  rw [hq, wholeTwo_1 (VOne m) c t, one_v2]
  refine Cert.KernelIdeal.Sums.pay3_eq_ref (aX m c) (aAdj m c) (aW1 m c) (aB1 m c) (aW2 m c) (aB2 m c) _ _ r p q (fun k => ?_) (fun h => ?_)
  · refine (readTwo_0 (VOne m) c t (ix2 p k) (ix2 r k) ?_ ?_).trans (congrFun (one_arg1 m c) _)
    · show r.val = win1_0.index t (0 : Fin 2) * 400 + p.val; rw [(idxTwo t).1, hr]; omega
    · show k.val = win1_0.index t (1 : Fin 2) * 10000 + k.val; rw [(idxTwo t).2.1]; omega
  · rw [wholeTwo_2 (VOne m) c t, one_v1]
    exact bias2_at m c h

/-- WHAT POINT t WRITES BACK is block 24 − t of the result. -/
theorem flushedTwo (t : Fin cfg1.N) :
    (datTwo (VOne m) c).flushed 3 t = ((cfg1.win 3).blk t).view.read (Elt Ideal) (result m c) := by
  show (cfg1.win 3).cut (grid1.coords t) ((datTwo (VOne m) c).after 3 t) = _
  rw [afterTwo_3]
  unfold outTwo
  rw [View.canon_unit_zero off_zero]
  simp only [View.ld_unit_zero (S := S400x10000) off_zero, View.ld_unit_zero (S := S10000x32) off_zero, View.ld_unit_zero (S := S1x32) off_zero]
  funext j
  refine stripe_result m c t j (((cfg1.win 3).blk t).view.emb j) ?_ ?_
  · show win1_3.index t (0 : Fin 2) * 400 + 1 * (j 0).val = 400 * (24 - t.val) + (j 0).val
    rw [(idxTwo t).2.2.2.2.2.2.1]; omega
  · show win1_3.index t (1 : Fin 2) * 32 + 1 * (j 1).val = (j 1).val
    rw [(idxTwo t).2.2.2.2.2.2.2]; omega

theorem mem_blkTwo (t : Fin cfg1.N) (i : S10000x32.Idx) :
    i ∈ ((cfg1.win 3).blk t).view.set ↔ ∀ a : Fin 2, win1_3.index t a * S400x32.size a ≤ (i a).val ∧ (i a).val < win1_3.index t a * S400x32.size a + S400x32.size a := by
  show i ∈ ((View.whole main_v3).slice (win1_3.rect t)).set ↔ _
  rw [View.set_slice_whole, Rect.mem_set_unit]
  exact Iff.rfl

/-- Row r lies in the stripe of point 24 − r / 400. -/
theorem coverTwo (i : S10000x32.Idx) : ∃ t : Fin cfg1.N, (cfg1.win 3).flush t = true ∧ i ∈ ((cfg1.win 3).blk t).view.set := by
  have hi0 : (i 0).val < 10000 := (i 0).isLt
  have hi1 : (i 1).val < 32 := (i 1).isLt
  have hN : cfg1.N = 25 := N_1
  refine ⟨⟨24 - (i 0).val / 400, by rw [hN]; omega⟩, flush1_3 _, ?_⟩
  rw [mem_blkTwo]
  intro a
  match a with
  | ⟨0, _⟩ =>
    show win1_3.index _ (0 : Fin 2) * 400 ≤ (i 0).val ∧ (i 0).val < win1_3.index _ (0 : Fin 2) * 400 + 400
    rw [(idxTwo _).2.2.2.2.2.2.1]; dsimp only; omega
  | ⟨1, _⟩ =>
    show win1_3.index _ (1 : Fin 2) * 32 ≤ (i 1).val ∧ (i 1).val < win1_3.index _ (1 : Fin 2) * 32 + 32
    rw [(idxTwo _).2.2.2.2.2.2.2]; omega

/-- THE SECOND REGION'S ARRAY ends holding the result. -/
theorem finalTwo : (datTwo (VOne m) c).arrAt 3 cfg1.N = result m c :=
  (datTwo (VOne m) c).arrAt_eq_of_cover 3 (result m c) (fun t _ => flushedTwo m c t) (coverTwo)

/-! ## The run, read -/

/-- Every weakly fair execution of the idealized kernel terminates with the result buffer at the reference's last
    stage of the six arguments, and the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (finalTwo m c), (h c).2⟩) (run_result m ρ)

end Cert.KernelIdeal.Result

end
-- ==== Proof.lean ====
/-
  The certificate of a two-layer graph convolution computed in row stripes against its whole-array reference:
  out = adj · (relu(adj · (x · W1) + b1) · W2) + b2.
  Both printed kernels (the word-level one and the idealized one) are the same program text: two reshapes of the bias
  vectors, then one pipeline region per layer. Each region's frame is proved from its body's triple: the second
  layer's body is one store of stripe × hidden + bias; the first layer's body keeps the support x · W1 in a scratch
  buffer across the grid, which the region's invariant carries. The ideal pass rewrote nothing, so the idealization
  claim is trivial. At exact arithmetic each region's output array is the stripes' write-backs tiled together, and
  entry by entry these are the same sums the reference's dot products form, in the same order: no algebraic law and
  no finiteness of the inputs is used.
-/
import proofs.«171362_g16277926052538_cont_week2b_966_18_alg».proof.Defs
import proofs.«171362_g16277926052538_cont_week2b_966_18_alg».proof.Proof.Gen.Kernel
import proofs.«171362_g16277926052538_cont_week2b_966_18_alg».proof.Proof.Gen.KernelIdeal
import proofs.«171362_g16277926052538_cont_week2b_966_18_alg».proof.Proof.Gen.ReferenceIdeal
import proofs.«171362_g16277926052538_cont_week2b_966_18_alg».proof.Proof.Gen.Pre_finite_inputs
import proofs.«171362_g16277926052538_cont_week2b_966_18_alg».proof.Proof.Gen.ReferenceIdeal.Run
import proofs.«171362_g16277926052538_cont_week2b_966_18_alg».proof.Proof.Gen.ReferenceIdeal.Read
import proofs.«171362_g16277926052538_cont_week2b_966_18_alg».proof.Proof.FrameB.Run
import proofs.«171362_g16277926052538_cont_week2b_966_18_alg».proof.Proof.FrameI.Run
import proofs.«171362_g16277926052538_cont_week2b_966_18_alg».proof.Proof.Result
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Hand.frame m ρ
/-- So does the idealized kernel. -/
theorem frame_ki : Cert.frame_KernelIdeal := fun m ρ _ => Cert.KernelIdeal.Hand.frame m ρ
/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote no operation. -/
theorem preserves : Cert.preserves_Kernel_KernelIdeal := trivial

/-- At exact arithmetic the kernel's result array ends at the reference's last stage of its arguments, and the
    reference's at the same stage of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.Read.val_main_v10_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
